-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x128 : Shape := ⟨3, ![16, 2048, 128]⟩
abbrev S16x2048x2048 : Shape := ⟨3, ![16, 2048, 2048]⟩
abbrev S128x32 : Shape := ⟨2, ![128, 32]⟩
abbrev S32 : Shape := ⟨1, ![32]⟩
abbrev S32x32 : Shape := ⟨2, ![32, 32]⟩
abbrev S32x512 : Shape := ⟨2, ![32, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S16x2048x128 : S_.BroadcastsInDim S16x2048x128 (![] : Fin 0 → Fin S16x2048x128.rank)
  reducesTo_S16x2048x128_S_d0_1_2 : S16x2048x128.ReducesTo [0, 1, 2] S_
  h_S_ : 0 < S_.numel
  bcast_S_S16x2048x2048 : S_.BroadcastsInDim S16x2048x2048 (![] : Fin 0 → Fin S16x2048x2048.rank)
  reducesTo_S16x2048x2048_S_d0_1_2 : S16x2048x2048.ReducesTo [0, 1, 2] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x512 : S_.BroadcastsInDim S32x512 (![] : Fin 0 → Fin S32x512.rank)
  reducesTo_S32x512_S_d0_1 : S32x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S512 .f32) (main_arg8 : FVec F S512x1 .f32) (main_arg9 : FVec F S1 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x1 .f32 := Host.absf main_arg8
  let main_cst_14 : FVec F S_ .f32 := constant S_ .f32 0x7F800000#32
  let main_v40 : FVec F S512x1 .f32 := broadcastInDim S512x1 ![] bcast_S_S512x1 main_cst_14
  let main_v41 : IVec S512x1 1 := cmpf .olt main_v39 main_v40
  let main_c_15 : IVec S_ 1 := constantI S_ 1 1#1
  let main_v42 : IVec S_ 1 := (fun x v => Host.reduce IntOp.andi x v reducesTo_S512x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S32x32 .f32) (main_arg5 : FVec F S32 .f32) (main_arg6 : FVec F S32x512 .f32) (main_arg7 : FVec F S512 .f32) (main_arg8 : FVec F S512x1 .f32) (main_arg9 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x512 .f32 := Host.absf main_arg6
  let main_cst_10 : FVec F S_ .f32 := constant S_ .f32 0x7F800000#32
  let main_v30 : FVec F S32x512 .f32 := broadcastInDim S32x512 ![] bcast_S_S32x512 main_cst_10
  let main_v31 : IVec S32x512 1 := cmpf .olt main_v29 main_v30
  let main_c_11 : IVec S_ 1 := constantI S_ 1 1#1
  let main_v32 : IVec S_ 1 := (fun x v => Host.reduce IntOp.andi x v reducesTo_S32x512_S_d0_1 h_S_) main_v31 main_c_11
  let main_v33 : IVec S_ 1 := andi main_v28 main_v32
  fn_part2 (F := F) main_arg7 main_arg8 main_arg9 main_v33

def fn {F : FTy → Type} [FloatOps F] (main_arg0 : FVec F S16x2048x128 .f32) (main_arg1 : FVec F S16x2048x2048 .f32) (main_arg2 : FVec F S128x32 .f32) (main_arg3 : FVec F S32 .f32) (main_arg4 : FVec F S32x32 .f32) (main_arg5 : FVec F S32 .f32) (main_arg6 : FVec F S32x512 .f32) (main_arg7 : FVec F S512 .f32) (main_arg8 : FVec F S512x1 .f32) (main_arg9 : FVec F S1 .f32) : IVec S_ 1 :=
  let main_v0 : FVec F S16x2048x128 .f32 := Host.absf main_arg0
  let main_cst : FVec F S_ .f32 := constant S_ .f32 0x7F800000#32
  let main_v1 : FVec F S16x2048x128 .f32 := broadcastInDim S16x2048x128 ![] bcast_S_S16x2048x128 main_cst
  let main_v2 : IVec S16x2048x128 1 := cmpf .olt main_v0 main_v1
  let main_c : IVec S_ 1 := constantI S_ 1 1#1
  let main_v3 : IVec S_ 1 := (fun x v => Host.reduce IntOp.andi x v reducesTo_S16x2048x128_S_d0_1_2 h_S_) main_v2 main_c
  let main_v4 : FVec F S16x2048x2048 .f32 := Host.absf main_arg1
  let main_cst_0 : FVec F S_ .f32 := constant S_ .f32 0x7F800000#32
  let main_v5 : FVec F S16x2048x2048 .f32 := broadcastInDim S16x2048x2048 ![] bcast_S_S16x2048x2048 main_cst_0
  let main_v6 : IVec S16x2048x2048 1 := cmpf .olt main_v4 main_v5
  let main_c_1 : IVec S_ 1 := constantI S_ 1 1#1
  let main_v7 : IVec S_ 1 := (fun x v => Host.reduce IntOp.andi x v reducesTo_S16x2048x2048_S_d0_1_2 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_v13 main_v16
-- ==== Kernel.lean ====
abbrev S16x2048x128 : Shape := ⟨3, ![16, 2048, 128]⟩
abbrev S16x2048x2048 : Shape := ⟨3, ![16, 2048, 2048]⟩
abbrev S128x32 : Shape := ⟨2, ![128, 32]⟩
abbrev S32 : Shape := ⟨1, ![32]⟩
abbrev S32x32 : Shape := ⟨2, ![32, 32]⟩
abbrev S32x512 : Shape := ⟨2, ![32, 512]⟩
abbrev S512 : Shape := ⟨1, ![512]⟩
abbrev S512x1 : Shape := ⟨2, ![512, 1]⟩
abbrev S1 : Shape := ⟨1, ![1]⟩
abbrev S1x32 : Shape := ⟨2, ![1, 32]⟩
abbrev S16x2048x32 : Shape := ⟨3, ![16, 2048, 32]⟩
abbrev S1x2048x128 : Shape := ⟨3, ![1, 2048, 128]⟩
abbrev S1x1024x2048 : Shape := ⟨3, ![1, 1024, 2048]⟩
abbrev S1x1024x32 : Shape := ⟨3, ![1, 1024, 32]⟩
abbrev S2048x128 : Shape := ⟨2, ![2048, 128]⟩
abbrev S2048x32 : Shape := ⟨2, ![2048, 32]⟩
abbrev S1024x2048 : Shape := ⟨2, ![1024, 2048]⟩
abbrev S1024x32 : Shape := ⟨2, ![1024, 32]⟩
abbrev S16x1x32 : Shape := ⟨3, ![16, 1, 32]⟩
abbrev S1x2048x32 : Shape := ⟨3, ![1, 2048, 32]⟩
abbrev S1x1x32 : Shape := ⟨3, ![1, 1, 32]⟩
abbrev S16x32 : Shape := ⟨2, ![16, 32]⟩
abbrev S16x512 : Shape := ⟨2, ![16, 512]⟩
abbrev S1x512 : Shape := ⟨2, ![1, 512]⟩
abbrev S_ : Shape := ⟨0, ![]⟩
abbrev S16x1 : Shape := ⟨2, ![16, 1]⟩
abbrev S1x1 : Shape := ⟨2, ![1, 1]⟩

abbrev nBuf : Space → Nat
  | .hbm => 34
  | .vmem => 16
  | .smem => 0
  | _ => 0

abbrev bufTy : (tb : Table) → Fin (tcTables nBuf tb) → BufTy
  | .hbm, ⟨0, _⟩ => ⟨S16x2048x128, .f32⟩
  | .hbm, ⟨1, _⟩ => ⟨S16x2048x2048, .f32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x512, .f32⟩
  | .hbm, ⟨7, _⟩ => ⟨S512, .f32⟩
  | .hbm, ⟨8, _⟩ => ⟨S512x1, .f32⟩
  | .hbm, ⟨9, _⟩ => ⟨S1, .f32⟩
  | .hbm, ⟨10, _⟩ => ⟨S1x32, .f32⟩
  | .hbm, ⟨11, _⟩ => ⟨S16x2048x32, .f32⟩
  | .hbm, ⟨12, _⟩ => ⟨S1x32, .f32⟩
  | .hbm, ⟨13, _⟩ => ⟨S16x1x32, .f32⟩
  | .hbm, ⟨14, _⟩ => ⟨S16x32, .f32⟩
  | .hbm, ⟨15, _⟩ => ⟨S16x512, .f32⟩
  | .hbm, ⟨16, _⟩ => ⟨S1x512, .f32⟩
  | .hbm, ⟨17, _⟩ => ⟨S16x512, .f32⟩
  | .hbm, ⟨18, _⟩ => ⟨S16x512, .f32⟩
  | .hbm, ⟨19, _⟩ => ⟨S_, .f32⟩
  | .hbm, ⟨20, _⟩ => ⟨S16x512, .f32⟩
  | .hbm, ⟨21, _⟩ => ⟨S16x512, .f32⟩
  | .hbm, ⟨22, _⟩ => ⟨S16x1, .f32⟩
  | .hbm, ⟨23, _⟩ => ⟨S1x1, .f32⟩
  | .hbm, ⟨24, _⟩ => ⟨S16x1, .f32⟩
  | .hbm, ⟨25, _⟩ => ⟨S16x1, .f32⟩
  | .hbm, ⟨26, _⟩ => ⟨S16x1, .f32⟩
  | .hbm, ⟨27, _⟩ => ⟨S16x1, .f32⟩
  | .hbm, ⟨28, _⟩ => ⟨S_, .f32⟩
  | .hbm, ⟨29, _⟩ => ⟨S16x1, .f32⟩
  | .hbm, ⟨30, _⟩ => ⟨S16x1, .f32⟩
  | .hbm, ⟨31, _⟩ => ⟨S_, .f32⟩
  | .hbm, ⟨32, _⟩ => ⟨S16x1, .f32⟩
  | .hbm, ⟨33, _⟩ => ⟨S16x1, .f32⟩
  | .local _ .vmem, ⟨0, _⟩ => ⟨S1x2048x128, .f32⟩
  | .local _ .vmem, ⟨1, _⟩ => ⟨S1x2048x128, .f32⟩
  | .local _ .vmem, ⟨2, _⟩ => ⟨S1x1024x2048, .f32⟩
  | .local _ .vmem, ⟨3, _⟩ => ⟨S1x1024x2048, .f32⟩
  | .local _ .vmem, ⟨4, _⟩ => ⟨S128x32, .f32⟩
  | .local _ .vmem, ⟨5, _⟩ => ⟨S1x32, .f32⟩
  | .local _ .vmem, ⟨6, _⟩ => ⟨S1x1024x32, .f32⟩
  | .local _ .vmem, ⟨7, _⟩ => ⟨S1x1024x32, .f32⟩
  | .local _ .vmem, ⟨8, _⟩ => ⟨S1x2048x32, .f32⟩
  | .local _ .vmem, ⟨9, _⟩ => ⟨S1x2048x32, .f32⟩
  | .local _ .vmem, ⟨10, _⟩ => ⟨S1x1024x2048, .f32⟩
  | .local _ .vmem, ⟨11, _⟩ => ⟨S1x1024x2048, .f32⟩
  | .local _ .vmem, ⟨12, _⟩ => ⟨S32x32, .f32⟩
  | .local _ .vmem, ⟨13, _⟩ => ⟨S1x32, .f32⟩
  | .local _ .vmem, ⟨14, _⟩ => ⟨S1x1x32, .f32⟩
  | .local _ .vmem, ⟨15, _⟩ => ⟨S1x1x32, .f32⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call0_cst : Ref sig .tc := ⟨.hbm, 19, rfl⟩
abbrev main_call0_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![16, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x1x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S32_S1x32 : S32.ShapeCasts S1x32
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  inb_S1x1024x32_S1x1024x32_0_0_0 : ∀ a, (![0, 0, 0] : Fin 3 → Nat) a + S1x1024x32.size a ≤ S1x1024x32.size a
  h_S1x1024x32 : 0 < S1x1024x32.numel
  shapeCasts_S1x1024x32_S1024x32 : S1x1024x32.ShapeCasts S1024x32
  shapeCasts_S1024x32_S1x1024x32 : S1024x32.ShapeCasts S1x1024x32
  inb_S1x1x32_S1x1x32_0_0_0 : ∀ a, (![0, 0, 0] : Fin 3 → Nat) a + S1x1x32.size a ≤ S1x1x32.size a
  h_S1x1x32 : 0 < S1x1x32.numel
  shapeCasts_S1x1x32_S1x32 : S1x1x32.ShapeCasts S1x32
  shapeCasts_S1x32_S1x1x32 : S1x32.ShapeCasts S1x1x32
  inb_S1x2048x32_S1x2048x32_0_0_0 : ∀ a, (![0, 0, 0] : Fin 3 → Nat) a + S1x2048x32.size a ≤ S1x2048x32.size a
  h_S1x2048x32 : 0 < S1x2048x32.numel
  shapeCasts_S1x2048x32_S2048x32 : S1x2048x32.ShapeCasts S2048x32
  inb_S32x32_S32x32_0_0 : ∀ a, (![0, 0] : Fin 2 → Nat) a + S32x32.size a ≤ S32x32.size a
  h_S32x32 : 0 < S32x32.numel
  reduces_S1024x32_S32 : S1024x32.Reduces [0] S32
  shapeCasts_S16x1x32_S16x32 : S16x1x32.ShapeCasts S16x32
  bcast_S512_S1x512_1 : S512.BroadcastsInDim S1x512 (![1] : Fin 1 → Fin S1x512.rank)
  bcast_S1x512_S16x512_0_1 : S1x512.BroadcastsInDim S16x512 (![0, 1] : Fin 2 → Fin S16x512.rank)
  bcast_S_S16x512 : S_.BroadcastsInDim S16x512 (![] : Fin 0 → Fin S16x512.rank)
  bcast_S1_S1x1_1 : S1.BroadcastsInDim S1x1 (![1] : Fin 1 → Fin S1x1.rank)
  bcast_S1x1_S16x1_0_1 : S1x1.BroadcastsInDim S16x1 (![0, 1] : Fin 2 → Fin S16x1.rank)
  bcast_S_S16x1 : S_.BroadcastsInDim S16x1 (![] : Fin 0 → Fin S16x1.rank)
  dot_S2048x128_S128x32_S2048x32_1_0_0_1_n_n_wf : DotDims.WF S2048x128 S128x32 S2048x32 [1] [0] [0] [1] [] []
  dot_S1024x2048_S2048x32_S1024x32_1_0_0_1_n_n_wf : DotDims.WF S1024x2048 S2048x32 S1024x32 [1] [0] [0] [1] [] []
  dot_S2048x32_S32x32_S2048x32_1_0_0_1_n_n_wf : DotDims.WF S2048x32 S32x32 S2048x32 [1] [0] [0] [1] [] []
  dot_S16x32_S32x512_S16x512_1_0_0_1_n_n_wf : DotDims.WF S16x32 S32x512 S16x512 [1] [0] [0] [1] [] []
  dot_S16x512_S512x1_S16x1_1_0_0_1_n_n_wf : DotDims.WF S16x512 S512x1 S16x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S16x2048x128.size a
  hwx0_0 : ∀ i : grid0.Coords, EltTy.bits .f32 = 32 ∨ (Rect.block (s := S16x2048x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S16x2048x2048.size a
  hwx0_1 : ∀ i : grid0.Coords, EltTy.bits .f32 = 32 ∨ (Rect.block (s := S16x2048x2048) S1x1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x32.size a ≤ S16x2048x32.size a
  hwx0_4 : ∀ i : grid0.Coords, EltTy.bits .f32 = 32 ∨ (Rect.block (s := S16x2048x32) S1x1024x32.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x32.size a ≤ S16x2048x32.size a
  hwx1_0 : ∀ i : grid1.Coords, EltTy.bits .f32 = 32 ∨ (Rect.block (s := S16x2048x32) S1x2048x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x2048.size a ≤ S16x2048x2048.size a
  hwx1_1 : ∀ i : grid1.Coords, EltTy.bits .f32 = 32 ∨ (Rect.block (s := S16x2048x2048) S1x1024x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x32.size a ≤ S16x1x32.size a
  hwx1_4 : ∀ i : grid1.Coords, EltTy.bits .f32 = 32 ∨ (Rect.block (s := S16x1x32) S1x1x32.size (cc1_transform_4 i) (hinb1_4 i)).WholeWords (EltTy.packing .f32)

variable [Facts₀]

def dot_S2048x128_S128x32_S2048x32_1_0_0_1_n_n : DotDims S2048x128 S128x32 S2048x32 where
  lhsContracting := [1]
  rhsContracting := [0]
  lhsNonContracting := [0]
  rhsNonContracting := [1]
  lhsBatch := []
  rhsBatch := []
  wf := dot_S2048x128_S128x32_S2048x32_1_0_0_1_n_n_wf
def dot_S1024x2048_S2048x32_S1024x32_1_0_0_1_n_n : DotDims S1024x2048 S2048x32 S1024x32 where
  lhsContracting := [1]
  rhsContracting := [0]
  lhsNonContracting := [0]
  rhsNonContracting := [1]
  lhsBatch := []
  rhsBatch := []
  wf := dot_S1024x2048_S2048x32_S1024x32_1_0_0_1_n_n_wf
def dot_S2048x32_S32x32_S2048x32_1_0_0_1_n_n : DotDims S2048x32 S32x32 S2048x32 where
  lhsContracting := [1]
  rhsContracting := [0]
  lhsNonContracting := [0]
  rhsNonContracting := [1]
  lhsBatch := []
  rhsBatch := []
  wf := dot_S2048x32_S32x32_S2048x32_1_0_0_1_n_n_wf
def dot_S16x32_S32x512_S16x512_1_0_0_1_n_n : DotDims S16x32 S32x512 S16x512 where
  lhsContracting := [1]
  rhsContracting := [0]
  lhsNonContracting := [0]
  rhsNonContracting := [1]
  lhsBatch := []
  rhsBatch := []
  wf := dot_S16x32_S32x512_S16x512_1_0_0_1_n_n_wf
def dot_S16x512_S512x1_S16x1_1_0_0_1_n_n : DotDims S16x512 S512x1 S16x1 where
  lhsContracting := [1]
  rhsContracting := [0]
  lhsNonContracting := [0]
  rhsNonContracting := [1]
  lhsBatch := []
  rhsBatch := []
  wf := dot_S16x512_S512x1_S16x1_1_0_0_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1) S1x2048x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x1x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16x2048x128 : Shape := ⟨3, ![16, 2048, 128]⟩
abbrev S16x2048x2048 : Shape := ⟨3, ![16, 2048, 2048]⟩
abbrev S128x32 : Shape := ⟨2, ![128, 32]⟩
abbrev S32 : Shape := ⟨1, ![32]⟩
abbrev S32x32 : Shape := ⟨2, ![32, 32]⟩
abbrev S32x512 : Shape := ⟨2, ![32, 512]⟩
abbrev S512 : Shape := ⟨1, ![512]⟩
abbrev S512x1 : Shape := ⟨2, ![512, 1]⟩
abbrev S1 : Shape := ⟨1, ![1]⟩
abbrev S16x2048x32 : Shape := ⟨3, ![16, 2048, 32]⟩
abbrev S1x1x32 : Shape := ⟨3, ![1, 1, 32]⟩
abbrev S_ : Shape := ⟨0, ![]⟩
abbrev S16x32 : Shape := ⟨2, ![16, 32]⟩
abbrev S16x512 : Shape := ⟨2, ![16, 512]⟩
abbrev S1x512 : Shape := ⟨2, ![1, 512]⟩
abbrev S16x1 : Shape := ⟨2, ![16, 1]⟩
abbrev S1x1 : Shape := ⟨2, ![1, 1]⟩

abbrev nBuf : Space → Nat
  | .hbm => 71
  | .vmem => 0
  | .smem => 0
  | _ => 0

abbrev bufTy : (tb : Table) → Fin (tcTables nBuf tb) → BufTy
  | .hbm, ⟨0, _⟩ => ⟨S16x2048x128, .f32⟩
  | .hbm, ⟨1, _⟩ => ⟨S16x2048x2048, .f32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x512, .f32⟩
  | .hbm, ⟨7, _⟩ => ⟨S512, .f32⟩
  | .hbm, ⟨8, _⟩ => ⟨S512x1, .f32⟩
  | .hbm, ⟨9, _⟩ => ⟨S1, .f32⟩
  | .hbm, ⟨10, _⟩ => ⟨S16x2048x32, .f32⟩
  | .hbm, ⟨11, _⟩ => ⟨S16x2048x32, .f32⟩
  | .hbm, ⟨12, _⟩ => ⟨S1x1x32, .f32⟩
  | .hbm, ⟨13, _⟩ => ⟨S16x2048x32, .f32⟩
  | .hbm, ⟨14, _⟩ => ⟨S16x2048x32, .f32⟩
  | .hbm, ⟨15, _⟩ => ⟨S_, .f32⟩
  | .hbm, ⟨16, _⟩ => ⟨S16x2048x32, .f32⟩
  | .hbm, ⟨17, _⟩ => ⟨S16x2048x32, .i1⟩
  | .hbm, ⟨18, _⟩ => ⟨S_, .f32⟩
  | .hbm, ⟨19, _⟩ => ⟨S16x2048x32, .f32⟩
  | .hbm, ⟨20, _⟩ => ⟨S16x2048x32, .i1⟩
  | .hbm, ⟨21, _⟩ => ⟨S_, .f32⟩
  | .hbm, ⟨22, _⟩ => ⟨S_, .f32⟩
  | .hbm, ⟨23, _⟩ => ⟨S16x2048x32, .f32⟩
  | .hbm, ⟨24, _⟩ => ⟨S16x2048x32, .f32⟩
  | .hbm, ⟨25, _⟩ => ⟨S16x2048x32, .f32⟩
  | .hbm, ⟨26, _⟩ => ⟨S_, .f32⟩
  | .hbm, ⟨27, _⟩ => ⟨S16x2048x32, .f32⟩
  | .hbm, ⟨28, _⟩ => ⟨S16x2048x32, .f32⟩
  | .hbm, ⟨29, _⟩ => ⟨S16x2048x32, .f32⟩
  | .hbm, ⟨30, _⟩ => ⟨S16x2048x32, .f32⟩
  | .hbm, ⟨31, _⟩ => ⟨S16x2048x32, .f32⟩
  | .hbm, ⟨32, _⟩ => ⟨S1x1x32, .f32⟩
  | .hbm, ⟨33, _⟩ => ⟨S16x2048x32, .f32⟩
  | .hbm, ⟨34, _⟩ => ⟨S16x2048x32, .f32⟩
  | .hbm, ⟨35, _⟩ => ⟨S_, .f32⟩
  | .hbm, ⟨36, _⟩ => ⟨S16x2048x32, .f32⟩
  | .hbm, ⟨37, _⟩ => ⟨S16x2048x32, .i1⟩
  | .hbm, ⟨38, _⟩ => ⟨S_, .f32⟩
  | .hbm, ⟨39, _⟩ => ⟨S16x2048x32, .f32⟩
  | .hbm, ⟨40, _⟩ => ⟨S16x2048x32, .i1⟩
  | .hbm, ⟨41, _⟩ => ⟨S_, .f32⟩
  | .hbm, ⟨42, _⟩ => ⟨S_, .f32⟩
  | .hbm, ⟨43, _⟩ => ⟨S16x2048x32, .f32⟩
  | .hbm, ⟨44, _⟩ => ⟨S16x2048x32, .f32⟩
  | .hbm, ⟨45, _⟩ => ⟨S16x2048x32, .f32⟩
  | .hbm, ⟨46, _⟩ => ⟨S_, .f32⟩
  | .hbm, ⟨47, _⟩ => ⟨S16x2048x32, .f32⟩
  | .hbm, ⟨48, _⟩ => ⟨S16x2048x32, .f32⟩
  | .hbm, ⟨49, _⟩ => ⟨S16x2048x32, .f32⟩
  | .hbm, ⟨50, _⟩ => ⟨S_, .f32⟩
  | .hbm, ⟨51, _⟩ => ⟨S16x32, .f32⟩
  | .hbm, ⟨52, _⟩ => ⟨S16x512, .f32⟩
  | .hbm, ⟨53, _⟩ => ⟨S1x512, .f32⟩
  | .hbm, ⟨54, _⟩ => ⟨S16x512, .f32⟩
  | .hbm, ⟨55, _⟩ => ⟨S16x512, .f32⟩
  | .hbm, ⟨56, _⟩ => ⟨S_, .f32⟩
  | .hbm, ⟨57, _⟩ => ⟨S16x512, .f32⟩
  | .hbm, ⟨58, _⟩ => ⟨S16x512, .f32⟩
  | .hbm, ⟨59, _⟩ => ⟨S16x1, .f32⟩
  | .hbm, ⟨60, _⟩ => ⟨S1x1, .f32⟩
  | .hbm, ⟨61, _⟩ => ⟨S16x1, .f32⟩
  | .hbm, ⟨62, _⟩ => ⟨S16x1, .f32⟩
  | .hbm, ⟨63, _⟩ => ⟨S16x1, .f32⟩
  | .hbm, ⟨64, _⟩ => ⟨S16x1, .f32⟩
  | .hbm, ⟨65, _⟩ => ⟨S_, .f32⟩
  | .hbm, ⟨66, _⟩ => ⟨S16x1, .f32⟩
  | .hbm, ⟨67, _⟩ => ⟨S16x1, .f32⟩
  | .hbm, ⟨68, _⟩ => ⟨S_, .f32⟩
  | .hbm, ⟨69, _⟩ => ⟨S16x1, .f32⟩
  | .hbm, ⟨70, _⟩ => ⟨S16x1, .f32⟩
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_cst_0 : Ref sig .tc := ⟨.hbm, 18, rfl⟩
abbrev main_call0_v2 : Ref sig .tc := ⟨.hbm, 19, rfl⟩
abbrev main_call0_v3 : Ref sig .tc := ⟨.hbm, 20, rfl⟩
abbrev main_call0_cst_1 : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_v4 : Ref sig .tc := ⟨.hbm, 24, rfl⟩
abbrev main_call0_v5 : Ref sig .tc := ⟨.hbm, 25, rfl⟩
abbrev main_call0_cst_2 : Ref sig .tc := ⟨.hbm, 26, rfl⟩
abbrev main_call0_v6 : Ref sig .tc := ⟨.hbm, 27, rfl⟩
abbrev main_call0_v7 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_call1_cst : Ref sig .tc := ⟨.hbm, 35, rfl⟩
abbrev main_call1_v0 : Ref sig .tc := ⟨.hbm, 36, rfl⟩
abbrev main_call1_v1 : Ref sig .tc := ⟨.hbm, 37, rfl⟩
abbrev main_call1_cst_0 : Ref sig .tc := ⟨.hbm, 38, rfl⟩
abbrev main_call1_v2 : Ref sig .tc := ⟨.hbm, 39, rfl⟩
abbrev main_call1_v3 : Ref sig .tc := ⟨.hbm, 40, rfl⟩
abbrev main_call1_cst_1 : Ref sig .tc := ⟨.hbm, 41, rfl⟩
abbrev main_call1_call0_v0 : Ref sig .tc := ⟨.hbm, 42, rfl⟩
abbrev main_call1_call0_v1 : Ref sig .tc := ⟨.hbm, 43, rfl⟩
abbrev main_call1_v4 : Ref sig .tc := ⟨.hbm, 44, rfl⟩
abbrev main_call1_v5 : Ref sig .tc := ⟨.hbm, 45, rfl⟩
abbrev main_call1_cst_2 : Ref sig .tc := ⟨.hbm, 46, rfl⟩
abbrev main_call1_v6 : Ref sig .tc := ⟨.hbm, 47, rfl⟩
abbrev main_call1_v7 : Ref sig .tc := ⟨.hbm, 48, rfl⟩
abbrev main_v11 : Ref sig .tc := ⟨.hbm, 49, rfl⟩
abbrev main_cst : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_call2_cst : Ref sig .tc := ⟨.hbm, 56, rfl⟩
abbrev main_call2_v0 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_cst_0 : Ref sig .tc := ⟨.hbm, 65, rfl⟩
abbrev main_v24 : Ref sig .tc := ⟨.hbm, 66, rfl⟩
abbrev main_v25 : Ref sig .tc := ⟨.hbm, 67, rfl⟩
abbrev main_cst_1 : Ref sig .tc := ⟨.hbm, 68, rfl⟩
abbrev main_v26 : Ref sig .tc := ⟨.hbm, 69, rfl⟩
abbrev main_v27 : Ref sig .tc := ⟨.hbm, 70, rfl⟩

abbrev nD : Nat := 1
abbrev τ : Topo := Topo.v7x

variable {F : FTy → Type} [FloatOps F]

class Facts₀ : Prop where
  bcast_S32_S1x1x32_2 : S32.BroadcastsInDim S1x1x32 (![2] : Fin 1 → Fin S1x1x32.rank)
  bcast_S1x1x32_S16x2048x32_0_1_2 : S1x1x32.BroadcastsInDim S16x2048x32 (![0, 1, 2] : Fin 3 → Fin S16x2048x32.rank)
  bcast_S_S16x2048x32 : S_.BroadcastsInDim S16x2048x32 (![] : Fin 0 → Fin S16x2048x32.rank)
  reducesTo_S16x2048x32_S16x32_d1 : S16x2048x32.ReducesTo [1] S16x32
  h_S_ : 0 < S_.numel
  bcast_S512_S1x512_1 : S512.BroadcastsInDim S1x512 (![1] : Fin 1 → Fin S1x512.rank)
  bcast_S1x512_S16x512_0_1 : S1x512.BroadcastsInDim S16x512 (![0, 1] : Fin 2 → Fin S16x512.rank)
  bcast_S_S16x512 : S_.BroadcastsInDim S16x512 (![] : Fin 0 → Fin S16x512.rank)
  bcast_S1_S1x1_1 : S1.BroadcastsInDim S1x1 (![1] : Fin 1 → Fin S1x1.rank)
  bcast_S1x1_S16x1_0_1 : S1x1.BroadcastsInDim S16x1 (![0, 1] : Fin 2 → Fin S16x1.rank)
  bcast_S_S16x1 : S_.BroadcastsInDim S16x1 (![] : Fin 0 → Fin S16x1.rank)
  dot_S16x2048x128_S128x32_S16x2048x32_2_0_01_1_n_n_wf : DotDims.WF S16x2048x128 S128x32 S16x2048x32 [2] [0] [0, 1] [1] [] []
  dot_S16x2048x2048_S16x2048x32_S16x2048x32_2_1_1_2_0_0_wf : DotDims.WF S16x2048x2048 S16x2048x32 S16x2048x32 [2] [1] [1] [2] [0] [0]
  dot_S16x2048x32_S32x32_S16x2048x32_2_0_01_1_n_n_wf : DotDims.WF S16x2048x32 S32x32 S16x2048x32 [2] [0] [0, 1] [1] [] []
  dot_S16x32_S32x512_S16x512_1_0_0_1_n_n_wf : DotDims.WF S16x32 S32x512 S16x512 [1] [0] [0] [1] [] []
  dot_S16x512_S512x1_S16x1_1_0_0_1_n_n_wf : DotDims.WF S16x512 S512x1 S16x1 [1] [0] [0] [1] [] []

variable [Facts₀]

def dot_S16x2048x128_S128x32_S16x2048x32_2_0_01_1_n_n : DotDims S16x2048x128 S128x32 S16x2048x32 where
  lhsContracting := [2]
  rhsContracting := [0]
  lhsNonContracting := [0, 1]
  rhsNonContracting := [1]
  lhsBatch := []
  rhsBatch := []
  wf := dot_S16x2048x128_S128x32_S16x2048x32_2_0_01_1_n_n_wf
def dot_S16x2048x2048_S16x2048x32_S16x2048x32_2_1_1_2_0_0 : DotDims S16x2048x2048 S16x2048x32 S16x2048x32 where
  lhsContracting := [2]
  rhsContracting := [1]
  lhsNonContracting := [1]
  rhsNonContracting := [2]
  lhsBatch := [0]
  rhsBatch := [0]
  wf := dot_S16x2048x2048_S16x2048x32_S16x2048x32_2_1_1_2_0_0_wf
def dot_S16x2048x32_S32x32_S16x2048x32_2_0_01_1_n_n : DotDims S16x2048x32 S32x32 S16x2048x32 where
  lhsContracting := [2]
  rhsContracting := [0]
  lhsNonContracting := [0, 1]
  rhsNonContracting := [1]
  lhsBatch := []
  rhsBatch := []
  wf := dot_S16x2048x32_S32x32_S16x2048x32_2_0_01_1_n_n_wf
def dot_S16x32_S32x512_S16x512_1_0_0_1_n_n : DotDims S16x32 S32x512 S16x512 where
  lhsContracting := [1]
  rhsContracting := [0]
  lhsNonContracting := [0]
  rhsNonContracting := [1]
  lhsBatch := []
  rhsBatch := []
  wf := dot_S16x32_S32x512_S16x512_1_0_0_1_n_n_wf
def dot_S16x512_S512x1_S16x1_1_0_0_1_n_n : DotDims S16x512 S512x1 S16x1 where
  lhsContracting := [1]
  rhsContracting := [0]
  lhsNonContracting := [0]
  rhsNonContracting := [1]
  lhsBatch := []
  rhsBatch := []
  wf := dot_S16x512_S512x1_S16x1_1_0_0_1_n_n_wf

class Facts : Prop extends Facts₀ where

variable [Facts]
-- ==== Proof.KernelRun.lean ====
/-
  The idealized kernel's run with its result kept.

  The program is seven segments: a reshape of the first bias, the first layer's kernel, a reshape of the second bias, the
  second layer's kernel with the pool, and three stretches of host operations (the perceptron's first product and bias, the
  rectifier, the second product with the logistic). Every weakly fair execution passes through them in order and ends with
  every buffer that outlives the kernels holding the contents `W7` — the fold of the segments over the launch memory. The
  frame statement keeps only the ten arguments of that final state; here the result buffer is kept as well, at `W7`'s
  value there, which the value modules then read back through the fold.
-/
import proofs.«177277_j5901285064811_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates without a fault, with the result buffer at the last
    boundary's contents and the ten arguments as launched. -/
theorem run_vals : θ_run defs (onTc (τ := τ) (main (F := F))) ⟨m, fun _ => 0, ρ⟩ (fun r => ∀ c : Dev nD,
      r.2.mem ((c.tc : Thread nD τ).loc main_v19) = W7 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v19 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c)⟩)

end Cert.KernelIdeal.KRun

end
-- ==== Proof.KernelTail.lean ====
/-
  The host side of the idealized kernel's program, read back to the launch memory.

  Between and after the two kernels the program runs plain array operations: each bias is reshaped to a row before its
  kernel, and after the second kernel the pooled array `[16, 1, 32]` is flattened to `[16, 32]` and sent through the
  perceptron — a product with the first dense weight, its bias, the rectifier, a product with the second dense weight, its
  bias, and the logistic function spelled `1 / (1 + exp (-t))`. `tail` is that last stretch as one function of the
  flattened pooled array and the four dense parameters. No operation and no kernel writes an argument, so every argument a
  later stage reads is the launched one.
-/
import proofs.«177277_j5901285064811_2_alg».proof.Proof.Gen.KernelIdeal.Frame
import Idealize.ShloMosaic.Lib.StableHlo.Run

set_option maxRecDepth 16384

noncomputable section

namespace Cert.KernelIdeal.KTail

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]

/-- Everything after the pool, in the printed order: the first dense layer (product, bias broadcast twice, sum), the
    rectifier (maximum with the zero splat), the second dense layer, and the logistic function. -/
def tail (p : FVec F S16x32 .f32) (wf1 : FVec F S32x512 .f32) (bf1 : FVec F S512 .f32) (wf2 : FVec F S512x1 .f32)
    (bf2 : FVec F S1 .f32) : FVec F S16x1 .f32 :=
  Host.divf (broadcastInDim S16x1 ![] bcast_S_S16x1 (constant S_ .f32 0x3F800000#32))
    (addf (broadcastInDim S16x1 ![] bcast_S_S16x1 (constant S_ .f32 0x3F800000#32))
      (Host.exp (Host.negf
        (addf
          (Host.dotGeneral dot_S16x512_S512x1_S16x1_1_0_0_1_n_n none
            (maximumf
              (addf (Host.dotGeneral dot_S16x32_S32x512_S16x512_1_0_0_1_n_n none p wf1)
                (broadcastInDim S16x512 ![0, 1] bcast_S1x512_S16x512_0_1 (broadcastInDim S1x512 ![1] bcast_S512_S1x512_1 bf1)))
              (broadcastInDim S16x512 ![] bcast_S_S16x512 (constant S_ .f32 0x00000000#32)))
            wf2)
          (broadcastInDim S16x1 ![0, 1] bcast_S1x1_S16x1_0_1 (broadcastInDim S1x1 ![1] bcast_S1_S1x1_1 bf2))))))

variable (m : (ℓ : Loc nD τ sig) → Buf (Elt F) ℓ) (ρ : Dev nD → PrngReg)

/-- The result buffer at the end: the tail of the flattened pooled array the second kernel left, with the dense
    parameters as they stand after that kernel. -/
theorem W7_result (c : Dev nD) :
    W7 m ρ c (Proc.devRef .tc main_v19)
      = tail (shapeCast S16x32 (W4 m ρ c (Proc.devRef .tc main_v3)) shapeCasts_S16x1x32_S16x32)
          (W4 m ρ c (Proc.devRef .tc main_arg6)) (W4 m ρ c (Proc.devRef .tc main_arg7))
          (W4 m ρ c (Proc.devRef .tc main_arg8)) (W4 m ρ c (Proc.devRef .tc main_arg9)) := by
  show StableHlo.after hostOps2_2 (W6 m ρ c) (Proc.devRef .tc main_v19) = _
  after_results
  rfl

/-- `main_arg4` is no array of the first kernel and no host operation writes it: at the second kernel's entry it is as launched. -/
theorem W3_main_arg4 (c : Dev nD) : W3 m ρ c (Proc.devRef .tc main_arg4) = m ((c : Thread nD τ).loc main_arg4) := by
  show StableHlo.after hostOps1 (W2 m ρ c) (Proc.devRef .tc main_arg4) = _
  after_results
  rw [W2_of_ne m ρ c main_arg4 (by decide)]
  show StableHlo.after hostOps0 (W0 m ρ c) (Proc.devRef .tc main_arg4) = _
  after_results

/-- `main_arg6` is no array of the first kernel and no host operation writes it: at the second kernel's entry it is as launched. -/
theorem W3_main_arg6 (c : Dev nD) : W3 m ρ c (Proc.devRef .tc main_arg6) = m ((c : Thread nD τ).loc main_arg6) := by
  show StableHlo.after hostOps1 (W2 m ρ c) (Proc.devRef .tc main_arg6) = _
  after_results
  rw [W2_of_ne m ρ c main_arg6 (by decide)]
  show StableHlo.after hostOps0 (W0 m ρ c) (Proc.devRef .tc main_arg6) = _
  after_results

/-- `main_arg7` is no array of the first kernel and no host operation writes it: at the second kernel's entry it is as launched. -/
theorem W3_main_arg7 (c : Dev nD) : W3 m ρ c (Proc.devRef .tc main_arg7) = m ((c : Thread nD τ).loc main_arg7) := by
  show StableHlo.after hostOps1 (W2 m ρ c) (Proc.devRef .tc main_arg7) = _
  after_results
  rw [W2_of_ne m ρ c main_arg7 (by decide)]
  show StableHlo.after hostOps0 (W0 m ρ c) (Proc.devRef .tc main_arg7) = _
  after_results

/-- `main_arg8` is no array of the first kernel and no host operation writes it: at the second kernel's entry it is as launched. -/
theorem W3_main_arg8 (c : Dev nD) : W3 m ρ c (Proc.devRef .tc main_arg8) = m ((c : Thread nD τ).loc main_arg8) := by
  show StableHlo.after hostOps1 (W2 m ρ c) (Proc.devRef .tc main_arg8) = _
  after_results
  rw [W2_of_ne m ρ c main_arg8 (by decide)]
  show StableHlo.after hostOps0 (W0 m ρ c) (Proc.devRef .tc main_arg8) = _
  after_results

/-- `main_arg9` is no array of the first kernel and no host operation writes it: at the second kernel's entry it is as launched. -/
theorem W3_main_arg9 (c : Dev nD) : W3 m ρ c (Proc.devRef .tc main_arg9) = m ((c : Thread nD τ).loc main_arg9) := by
  show StableHlo.after hostOps1 (W2 m ρ c) (Proc.devRef .tc main_arg9) = _
  after_results
  rw [W2_of_ne m ρ c main_arg9 (by decide)]
  show StableHlo.after hostOps0 (W0 m ρ c) (Proc.devRef .tc main_arg9) = _
  after_results

theorem W4_main_arg6 (c : Dev nD) : W4 m ρ c (Proc.devRef .tc main_arg6) = m ((c : Thread nD τ).loc main_arg6) := by
  rw [W4_of_ne m ρ c main_arg6 (by decide)]
  exact W3_main_arg6 m ρ c

theorem W4_main_arg7 (c : Dev nD) : W4 m ρ c (Proc.devRef .tc main_arg7) = m ((c : Thread nD τ).loc main_arg7) := by
  rw [W4_of_ne m ρ c main_arg7 (by decide)]
  exact W3_main_arg7 m ρ c

theorem W4_main_arg8 (c : Dev nD) : W4 m ρ c (Proc.devRef .tc main_arg8) = m ((c : Thread nD τ).loc main_arg8) := by
  rw [W4_of_ne m ρ c main_arg8 (by decide)]
  exact W3_main_arg8 m ρ c

theorem W4_main_arg9 (c : Dev nD) : W4 m ρ c (Proc.devRef .tc main_arg9) = m ((c : Thread nD τ).loc main_arg9) := by
  rw [W4_of_ne m ρ c main_arg9 (by decide)]
  exact W3_main_arg9 m ρ c

/-- `main_arg0` at the first kernel's entry is as launched. -/
theorem W1_main_arg0 (c : Dev nD) : W1 m ρ c (Proc.devRef .tc main_arg0) = m ((c : Thread nD τ).loc main_arg0) := by
  show StableHlo.after hostOps0 (W0 m ρ c) (Proc.devRef .tc main_arg0) = _
  after_results

/-- `main_arg1` at the first kernel's entry is as launched. -/
theorem W1_main_arg1 (c : Dev nD) : W1 m ρ c (Proc.devRef .tc main_arg1) = m ((c : Thread nD τ).loc main_arg1) := by
  show StableHlo.after hostOps0 (W0 m ρ c) (Proc.devRef .tc main_arg1) = _
  after_results

/-- `main_arg2` at the first kernel's entry is as launched. -/
theorem W1_main_arg2 (c : Dev nD) : W1 m ρ c (Proc.devRef .tc main_arg2) = m ((c : Thread nD τ).loc main_arg2) := by
  show StableHlo.after hostOps0 (W0 m ρ c) (Proc.devRef .tc main_arg2) = _
  after_results

/-- The first bias as the first kernel finds it: the launched vector reshaped to a row. -/
theorem W1_main_v0 (c : Dev nD) :
    W1 m ρ c (Proc.devRef .tc main_v0) = shapeCast S1x32 (m ((c : Thread nD τ).loc main_arg3)) shapeCasts_S32_S1x32 := by
  show StableHlo.after hostOps0 (W0 m ρ c) (Proc.devRef .tc main_v0) = _
  after_results
  rfl

/-- The adjacency is an input array of the first kernel, which leaves it as it found it. -/
theorem W3_main_arg1 (c : Dev nD) : W3 m ρ c (Proc.devRef .tc main_arg1) = m ((c : Thread nD τ).loc main_arg1) := by
  show StableHlo.after hostOps1 (W2 m ρ c) (Proc.devRef .tc main_arg1) = _
  after_results
  exact ((W2_arr m ρ c 1).trans (((dat0 (V1 m ρ) c).arrAt_in 1 rfl _).trans (A_eq0 (V1 m ρ) c 1))).trans (W1_main_arg1 m ρ c)

/-- The second bias as the second kernel finds it: the launched vector reshaped to a row. -/
theorem W3_main_v2 (c : Dev nD) :
    W3 m ρ c (Proc.devRef .tc main_v2) = shapeCast S1x32 (m ((c : Thread nD τ).loc main_arg5)) shapeCasts_S32_S1x32 := by
  show StableHlo.after hostOps1 (W2 m ρ c) (Proc.devRef .tc main_v2) = _
  after_results
  rw [W2_of_ne m ρ c main_arg5 (by decide)]
  show (fun i => shapeCast S1x32 (StableHlo.after hostOps0 (W0 m ρ c) (Proc.devRef .tc main_arg5)) shapeCasts_S32_S1x32 i) = _
  after_results

/-- The first layer's output as the second kernel finds it: what the first kernel's write-backs left. -/
theorem W3_main_v1 (c : Dev nD) : W3 m ρ c (Proc.devRef .tc main_v1) = (dat0 (V1 m ρ) c).arrAt 4 cfg0.N := by
  show StableHlo.after hostOps1 (W2 m ρ c) (Proc.devRef .tc main_v1) = _
  after_results
  exact W2_arr m ρ c 4

end Cert.KernelIdeal.KTail

end
-- ==== Proof.Spec.lean ====
/-
  The network's value, entry by entry, on the extended reals.

  A graph-convolution layer takes node features `h[b, m, f]`, a dense adjacency `a[b, n, m]`, a weight `w[f, c]` and a
  bias `bias[c]`, and returns `elu (∑ m, a[b, n, m] · (∑ f, h[b, m, f] · w[f, c]) + bias[c])`: the features are
  transformed first and aggregated over the neighbours second, in that grouping. Two layers are stacked, the second
  layer's rows are summed over the nodes (`pool`), and a two-layer perceptron with a logistic output follows.

  `elu z` is `z` above zero and `exp z - 1` elsewhere. Both programs compute it through a comparison with zero and a
  selection; they differ only in how the discarded branch is guarded (`min z 0` on one side, a selection of `0` on the
  other), which does not change the selected value (`elu_of_min`, `elu_of_guard`).
-/
import Idealize.ShloMosaic.PureOps.Ideal
import Idealize.ShloMosaic.PureOps.Ideal.Laws
import Idealize.ShloMosaic.Lib.ValueIdx

noncomputable section

namespace Cert.GcnSpec

open Idealize.ShloMosaic ValueIdx

/-- The exponential linear unit on the extended reals. -/
def elu (z : EReal) : EReal := if 0 < z then z else Ideal.exp z - 1

/-- The selection a program makes with the comparison `z > 0` (a one-bit word) is `elu`, when the branch taken at
    `z ≤ 0` is `exp z - 1` there. -/
theorem elu_of_select (z neg : EReal) (hneg : ¬ 0 < z → neg = Ideal.exp z - 1) :
    Scalar.select (Ideal.cmp .ogt z 0) z neg = elu z := by
  unfold elu Ideal.cmp
  by_cases h : 0 < z
  · simp [h, Scalar.select]
  · simp [h, Scalar.select, hneg h]

/-- Guarding the exponential's argument by `min z 0` changes nothing where `z ≤ 0`. -/
theorem elu_of_min (z : EReal) :
    Scalar.select (Ideal.cmp .ogt z 0) z (Ideal.exp (min z 0) - 1) = elu z :=
  elu_of_select z _ fun h => by rw [min_eq_left (not_lt.mp h)]

/-- Guarding it by a selection of `0` where `z > 0`, and scaling the result by one, changes nothing where `z ≤ 0`. -/
theorem elu_of_guard (z : EReal) :
    Scalar.select (Ideal.cmp .ogt z 0) z (1 * (Ideal.exp (Scalar.select (Ideal.cmp .ogt z 0) 0 z) - 1)) = elu z :=
  elu_of_select z _ fun h => by
    have hc : Ideal.cmp .ogt z 0 = 0#1 := by unfold Ideal.cmp; simp [h]
    rw [hc, one_mul]; rfl

variable {K : Nat}

/-- The transformed features: `(h · w)[b, m, c] = ∑ f, h[b, m, f] · w[f, c]`. -/
def transformed (h : (⟨3, ![16, 2048, K]⟩ : Shape).Idx → EReal) (w : (⟨2, ![K, 32]⟩ : Shape).Idx → EReal)
    (b : Fin 16) (m : Fin 2048) (c : Fin 32) : EReal :=
  ∑ f : Fin K, h (ix3 b m f) * w (ix2 f c)

/-- A layer's entry before the activation: the adjacency row against the transformed features, plus the bias. -/
def preact (h : (⟨3, ![16, 2048, K]⟩ : Shape).Idx → EReal) (a : (⟨3, ![16, 2048, 2048]⟩ : Shape).Idx → EReal)
    (w : (⟨2, ![K, 32]⟩ : Shape).Idx → EReal) (bias : (⟨1, ![32]⟩ : Shape).Idx → EReal)
    (b : Fin 16) (n : Fin 2048) (c : Fin 32) : EReal :=
  (∑ m : Fin 2048, a (ix3 b n m) * transformed h w b m c) + bias (ix1 c)

/-- A layer's entry. -/
def layerAt (h : (⟨3, ![16, 2048, K]⟩ : Shape).Idx → EReal) (a : (⟨3, ![16, 2048, 2048]⟩ : Shape).Idx → EReal)
    (w : (⟨2, ![K, 32]⟩ : Shape).Idx → EReal) (bias : (⟨1, ![32]⟩ : Shape).Idx → EReal)
    (b : Fin 16) (n : Fin 2048) (c : Fin 32) : EReal :=
  elu (preact h a w bias b n c)

/-- A layer as an array. -/
def layer (h : (⟨3, ![16, 2048, K]⟩ : Shape).Idx → EReal) (a : (⟨3, ![16, 2048, 2048]⟩ : Shape).Idx → EReal)
    (w : (⟨2, ![K, 32]⟩ : Shape).Idx → EReal) (bias : (⟨1, ![32]⟩ : Shape).Idx → EReal) :
    (⟨3, ![16, 2048, 32]⟩ : Shape).Idx → EReal :=
  fun i => layerAt h a w bias (i 0) (i 1) (i 2)

theorem layer_ix3 (h : (⟨3, ![16, 2048, K]⟩ : Shape).Idx → EReal) (a : (⟨3, ![16, 2048, 2048]⟩ : Shape).Idx → EReal)
    (w : (⟨2, ![K, 32]⟩ : Shape).Idx → EReal) (bias : (⟨1, ![32]⟩ : Shape).Idx → EReal)
    (b : Fin 16) (n : Fin 2048) (c : Fin 32) : layer h a w bias (ix3 b n c) = layerAt h a w bias b n c := rfl

/-- The sum of a layer's rows over the nodes. -/
def pool (g : (⟨3, ![16, 2048, 32]⟩ : Shape).Idx → EReal) (b : Fin 16) (c : Fin 32) : EReal :=
  ∑ n : Fin 2048, g (ix3 b n c)

/-- The pooled second layer of the two stacked layers, as a `[16, 32]` array. -/
def pooled (x : (⟨3, ![16, 2048, 128]⟩ : Shape).Idx → EReal) (a : (⟨3, ![16, 2048, 2048]⟩ : Shape).Idx → EReal)
    (w1 : (⟨2, ![128, 32]⟩ : Shape).Idx → EReal) (b1 : (⟨1, ![32]⟩ : Shape).Idx → EReal)
    (w2 : (⟨2, ![32, 32]⟩ : Shape).Idx → EReal) (b2 : (⟨1, ![32]⟩ : Shape).Idx → EReal) :
    (⟨2, ![16, 32]⟩ : Shape).Idx → EReal :=
  fun j => pool (layer (layer x a w1 b1) a w2 b2) (j 0) (j 1)

/-- The nodes split into two tiles of 1024 rows: the sum over all of them is the first tile's plus the second's. -/
theorem sum_two_tiles (f : Fin 2048 → EReal) :
    ∑ n : Fin 2048, f n
      = (∑ r : Fin 1024, f ⟨r.val, by omega⟩) + ∑ r : Fin 1024, f ⟨1024 + r.val, by omega⟩ := by
  rw [show (∑ n : Fin 2048, f n) = ∑ n : Fin (1024 + 1024), f n from rfl, Fin.sum_univ_add]
  rfl

end Cert.GcnSpec

end
-- ==== Proof.Layer1Payload.lean ====
/-
  The first layer's kernel body at one entry.

  At a grid point the body holds one batch's node features `x[0, m, f]`, a tile of 1024 adjacency rows `a[0, r, m]`,
  the weight `w[f, c]` and the bias row `bias[0, c]`. It forms the transformed features `∑ f, x[0, m, f] · w[f, c]` for
  all 2048 nodes, multiplies the adjacency tile against them, adds the bias row to every row and applies the exponential
  linear unit. Both matrix products accumulate into zero, so at the exact values each is the plain sum over the
  contraction index; the roundings to a shorter format on the way in are the identity there.
-/
import proofs.«177277_j5901285064811_2_alg».proof.Proof.Gen.KernelIdeal.Skeleton
import proofs.«177277_j5901285064811_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Layer1

open Cert.KernelIdeal Cert.KernelIdeal.Gen
open Idealize.ShloMosaic Idealize.ShloMosaic.ValueIdx

/-- The word `0x3F800000` is the real number one. -/
theorem ofBits_one_f32 : Ideal.ofBits .f32 0x3F800000#32 = 1 := by
  simp [Ideal.ofBits, Ideal.ieee, -EReal.coe_mul]; norm_num

/-- The exponential linear unit as the body spells it on a vector — compare with zero, select the entry itself or
    `exp (min z 0) - 1` — is `elu` entry by entry. -/
theorem eluVec_apply {s : Shape} (z : FVec Ideal s .f32) (i : s.Idx) :
    select (cmpf .ogt z (broadcast s (Scalar.ofBits .f32 0x00000000#32))) z
        (subf (exp (minimumf z (broadcast s (Scalar.ofBits .f32 0x00000000#32)))) (broadcast s (Scalar.ofBits .f32 0x3F800000#32))) i
      = Cert.GcnSpec.elu (z i) := by
  show Scalar.select (Ideal.cmp .ogt (z i) (Ideal.ofBits .f32 0x00000000#32)) (z i)
      (Ideal.exp (min (z i) (Ideal.ofBits .f32 0x00000000#32)) - Ideal.ofBits .f32 0x3F800000#32) = _
  rw [Ideal.ofBits_zero_f32, ofBits_one_f32]
  exact Cert.GcnSpec.elu_of_min (z i)

/-- The operand indices of this product at output entry `i` and contraction position `q`, coordinate by coordinate. -/
theorem d1_lhs0 (i : S2048x32.Idx) (q : dot_S2048x128_S128x32_S2048x32_1_0_0_1_n_n.contr.Idx) : (dot_S2048x128_S128x32_S2048x32_1_0_0_1_n_n.lhsIdx i q 0).val = (i 0).val := by
  unfold DotDims.lhsIdx
  rw [dif_neg (show ¬(0 : Fin S2048x128.rank) ∈ dot_S2048x128_S128x32_S2048x32_1_0_0_1_n_n.lhsBatch by decide), dif_pos (show (0 : Fin S2048x128.rank) ∈ dot_S2048x128_S128x32_S2048x32_1_0_0_1_n_n.lhsNonContracting by decide)]
  rfl
theorem d1_lhs1 (i : S2048x32.Idx) (q : dot_S2048x128_S128x32_S2048x32_1_0_0_1_n_n.contr.Idx) : (dot_S2048x128_S128x32_S2048x32_1_0_0_1_n_n.lhsIdx i q 1).val = (q ⟨0, by decide⟩).val :=
  dot_S2048x128_S128x32_S2048x32_1_0_0_1_n_n.lhsIdx_val_of_single rfl i q
theorem d1_rhs0 (i : S2048x32.Idx) (q : dot_S2048x128_S128x32_S2048x32_1_0_0_1_n_n.contr.Idx) : (dot_S2048x128_S128x32_S2048x32_1_0_0_1_n_n.rhsIdx i q 0).val = (q ⟨0, by decide⟩).val :=
  dot_S2048x128_S128x32_S2048x32_1_0_0_1_n_n.rhsIdx_val_of_single rfl i q
theorem d1_rhs1 (i : S2048x32.Idx) (q : dot_S2048x128_S128x32_S2048x32_1_0_0_1_n_n.contr.Idx) : (dot_S2048x128_S128x32_S2048x32_1_0_0_1_n_n.rhsIdx i q 1).val = (i 1).val := by
  unfold DotDims.rhsIdx
  rw [dif_neg (show ¬(1 : Fin S128x32.rank) ∈ dot_S2048x128_S128x32_S2048x32_1_0_0_1_n_n.rhsBatch by decide), dif_pos (show (1 : Fin S128x32.rank) ∈ dot_S2048x128_S128x32_S2048x32_1_0_0_1_n_n.rhsNonContracting by decide)]
  rfl

/-- The operand indices of this product at output entry `i` and contraction position `q`, coordinate by coordinate. -/
theorem d2_lhs0 (i : S1024x32.Idx) (q : dot_S1024x2048_S2048x32_S1024x32_1_0_0_1_n_n.contr.Idx) : (dot_S1024x2048_S2048x32_S1024x32_1_0_0_1_n_n.lhsIdx i q 0).val = (i 0).val := by
  unfold DotDims.lhsIdx
  rw [dif_neg (show ¬(0 : Fin S1024x2048.rank) ∈ dot_S1024x2048_S2048x32_S1024x32_1_0_0_1_n_n.lhsBatch by decide), dif_pos (show (0 : Fin S1024x2048.rank) ∈ dot_S1024x2048_S2048x32_S1024x32_1_0_0_1_n_n.lhsNonContracting by decide)]
  rfl
theorem d2_lhs1 (i : S1024x32.Idx) (q : dot_S1024x2048_S2048x32_S1024x32_1_0_0_1_n_n.contr.Idx) : (dot_S1024x2048_S2048x32_S1024x32_1_0_0_1_n_n.lhsIdx i q 1).val = (q ⟨0, by decide⟩).val :=
  dot_S1024x2048_S2048x32_S1024x32_1_0_0_1_n_n.lhsIdx_val_of_single rfl i q
theorem d2_rhs0 (i : S1024x32.Idx) (q : dot_S1024x2048_S2048x32_S1024x32_1_0_0_1_n_n.contr.Idx) : (dot_S1024x2048_S2048x32_S1024x32_1_0_0_1_n_n.rhsIdx i q 0).val = (q ⟨0, by decide⟩).val :=
  dot_S1024x2048_S2048x32_S1024x32_1_0_0_1_n_n.rhsIdx_val_of_single rfl i q
theorem d2_rhs1 (i : S1024x32.Idx) (q : dot_S1024x2048_S2048x32_S1024x32_1_0_0_1_n_n.contr.Idx) : (dot_S1024x2048_S2048x32_S1024x32_1_0_0_1_n_n.rhsIdx i q 1).val = (i 1).val := by
  unfold DotDims.rhsIdx
  rw [dif_neg (show ¬(1 : Fin S2048x32.rank) ∈ dot_S1024x2048_S2048x32_S1024x32_1_0_0_1_n_n.rhsBatch by decide), dif_pos (show (1 : Fin S2048x32.rank) ∈ dot_S1024x2048_S2048x32_S1024x32_1_0_0_1_n_n.rhsNonContracting by decide)]
  rfl

/-- The feature transform at an entry: the sum over the 128 input features. -/
theorem transform_apply {φ₁ φ₂ : FTy} (l : FVec Ideal S2048x128 φ₁) (r : FVec Ideal S128x32 φ₂) (p : Fin 2048) (c : Fin 32) :
    matmul (F := Ideal) dot_S2048x128_S128x32_S2048x32_1_0_0_1_n_n none l r (constant S2048x32 .f32 0x00000000#32) (ix2 p c)
      = ∑ k : Fin 128, l (ix2 p k) * r (ix2 k c) := by
  refine (Ideal.matmul_constant_zero_apply dot_S2048x128_S128x32_S2048x32_1_0_0_1_n_n none l r (ix2 p c)).trans ?_
  rw [← Equiv.sum_comp (contrEquiv1 dot_S2048x128_S128x32_S2048x32_1_0_0_1_n_n 128 rfl rfl).symm]
  refine Finset.sum_congr rfl fun k _ => ?_
  have hk := contrEquiv1_symm_val dot_S2048x128_S128x32_S2048x32_1_0_0_1_n_n 128 rfl rfl k
  have el : dot_S2048x128_S128x32_S2048x32_1_0_0_1_n_n.lhsIdx (ix2 p c) ((contrEquiv1 dot_S2048x128_S128x32_S2048x32_1_0_0_1_n_n 128 rfl rfl).symm k) = ix2 p k := funext fun a => Fin.ext (by
    match a with
    | ⟨0, _⟩ => exact d1_lhs0 _ _
    | ⟨1, _⟩ => exact (d1_lhs1 _ _).trans hk)
  have er : dot_S2048x128_S128x32_S2048x32_1_0_0_1_n_n.rhsIdx (ix2 p c) ((contrEquiv1 dot_S2048x128_S128x32_S2048x32_1_0_0_1_n_n 128 rfl rfl).symm k) = ix2 k c := funext fun a => Fin.ext (by
    match a with
    | ⟨0, _⟩ => exact (d1_rhs0 _ _).trans hk
    | ⟨1, _⟩ => exact d1_rhs1 _ _)
  rw [el, er]

/-- The aggregation of a tile of 1024 adjacency rows at an entry: the sum over the 2048 neighbours. -/
theorem aggregate_apply {φ₁ φ₂ : FTy} (l : FVec Ideal S1024x2048 φ₁) (r : FVec Ideal S2048x32 φ₂) (p : Fin 1024) (c : Fin 32) :
    matmul (F := Ideal) dot_S1024x2048_S2048x32_S1024x32_1_0_0_1_n_n none l r (constant S1024x32 .f32 0x00000000#32) (ix2 p c)
      = ∑ k : Fin 2048, l (ix2 p k) * r (ix2 k c) := by
  refine (Ideal.matmul_constant_zero_apply dot_S1024x2048_S2048x32_S1024x32_1_0_0_1_n_n none l r (ix2 p c)).trans ?_
  rw [← Equiv.sum_comp (contrEquiv1 dot_S1024x2048_S2048x32_S1024x32_1_0_0_1_n_n 2048 rfl rfl).symm]
  refine Finset.sum_congr rfl fun k _ => ?_
  have hk := contrEquiv1_symm_val dot_S1024x2048_S2048x32_S1024x32_1_0_0_1_n_n 2048 rfl rfl k
  have el : dot_S1024x2048_S2048x32_S1024x32_1_0_0_1_n_n.lhsIdx (ix2 p c) ((contrEquiv1 dot_S1024x2048_S2048x32_S1024x32_1_0_0_1_n_n 2048 rfl rfl).symm k) = ix2 p k := funext fun a => Fin.ext (by
    match a with
    | ⟨0, _⟩ => exact d2_lhs0 _ _
    | ⟨1, _⟩ => exact (d2_lhs1 _ _).trans hk)
  have er : dot_S1024x2048_S2048x32_S1024x32_1_0_0_1_n_n.rhsIdx (ix2 p c) ((contrEquiv1 dot_S1024x2048_S2048x32_S1024x32_1_0_0_1_n_n 2048 rfl rfl).symm k) = ix2 k c := funext fun a => Fin.ext (by
    match a with
    | ⟨0, _⟩ => exact (d2_rhs0 _ _).trans hk
    | ⟨1, _⟩ => exact d2_rhs1 _ _)
  rw [el, er]

/-- The body's stored value at row `r` of the tile and channel `c`. -/
theorem pay_apply (x : Vec Ideal S1x2048x128 .f32) (w : Vec Ideal S128x32 .f32) (a : Vec Ideal S1x1024x2048 .f32)
    (bias : Vec Ideal S1x32 .f32) (r : Fin 1024) (c : Fin 32) :
    k0_pay1 (F := Ideal) x w a bias (ix3 (0 : Fin 1) r c)
      = Cert.GcnSpec.elu ((∑ k : Fin 2048, a (ix3 (0 : Fin 1) r k) * ∑ f : Fin 128, x (ix3 (0 : Fin 1) k f) * w (ix2 f c))
          + bias (ix2 (0 : Fin 1) c)) := by
  unfold k0_pay1
  refine (shapeCast_ab_1ab_apply _ _ 0 r c).trans ?_
  refine (eluVec_apply _ (ix2 r c)).trans ?_
  refine congrArg Cert.GcnSpec.elu ?_
  refine congrArg₂ (· + ·) ?_ ?_
  · refine (aggregate_apply _ _ r c).trans ?_
    refine Finset.sum_congr rfl fun k _ => ?_
    refine congrArg₂ (· * ·) ?_ ?_
    · exact shapeCast_1ab_ab_apply a _ r k
    · refine (transform_apply _ _ k c).trans ?_
      refine Finset.sum_congr rfl fun f _ => ?_
      exact congrArg (· * w (ix2 f c)) (shapeCast_1ab_ab_apply x _ k f)
  · refine (broadcastTo_1b_ab_apply _ _ r c).trans ?_
    exact congrFun (shapeCast_self bias _) _

end Cert.KernelIdeal.Layer1

end
-- ==== Proof.Layer1Value.lean ====
/-
  The first layer's output array after its kernel has run.

  The grid is 16 batches by 2 row tiles; point `t` is batch `t / 2`, tile `t % 2`. At that point the kernel reads the whole
  feature matrix of its batch, rows `1024 · (t % 2) …` of the batch's adjacency, the whole weight and the bias row, and
  writes rows `1024 · (t % 2) …` of the batch's output. Every point writes its block back, the 32 blocks tile the output,
  and each block is the corresponding block of ONE function of the arrays the kernel finds: the layer
  `elu (a · (x · w) + bias)` of the specification.
-/
import proofs.«177277_j5901285064811_2_alg».proof.Proof.Gen.KernelIdeal.Frame
import proofs.«177277_j5901285064811_2_alg».proof.Proof.Layer1Payload

set_option maxRecDepth 16384

noncomputable section

namespace Cert.KernelIdeal.Layer1

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The first layer as a function of the arrays the kernel finds: features, adjacency, weight, and the bias row
    (a `[1, 32]` array read at its one row). -/
def H1 (c : Dev nD) : S16x2048x32.Idx → EReal :=
  Cert.GcnSpec.layer (V c main_arg0) (V c main_arg1) (V c main_arg2) (fun i => V c main_v0 (ix2 (0 : Fin 1) (i 0)))

/-- The block index of every window at every point, decided over the 32 points. -/
theorem idx_facts : ∀ t : Fin cfg0.N,
    win0_0.index t (0 : Fin 3) = t.val / 2 ∧ win0_0.index t (1 : Fin 3) = 0 ∧ win0_0.index t (2 : Fin 3) = 0
    ∧ win0_1.index t (0 : Fin 3) = t.val / 2 ∧ win0_1.index t (1 : Fin 3) = t.val % 2 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 2 ∧ win0_4.index t (1 : Fin 3) = t.val % 2 ∧ win0_4.index t (2 : Fin 3) = 0 :=
  (by decide +kernel : ∀ t : Fin grid0.N, _)

theorem val_lt (t : Fin cfg0.N) : t.val < 32 := lt_of_lt_of_eq t.isLt (show cfg0.N = 32 from N_0)

/-- The features' block at a point is the batch's whole feature matrix. -/
theorem blk_features (c : Dev nD) (t : Fin cfg0.N) (m : Fin 2048) (f : Fin 128) :
    iblk0 V c 0 t (ix3 (0 : Fin 1) m f) = V c main_arg0 (ix3 (⟨t.val / 2, by have := val_lt t; omega⟩ : Fin 16) m f) := by
  obtain ⟨e0, e1, e2, -⟩ := idx_facts t
  show V c main_arg0 (((cfg0.win 0).blk t).view.emb (ix3 (0 : Fin 1) m f)) = _
  refine congrArg (V c main_arg0) ?_
  funext a; apply Fin.ext
  match a with
  | ⟨0, _⟩ => show win0_0.index t (0 : Fin 3) * 1 + 1 * 0 = t.val / 2; omega
  | ⟨1, _⟩ => show win0_0.index t (1 : Fin 3) * 2048 + 1 * m.val = m.val; omega
  | ⟨2, _⟩ => show win0_0.index t (2 : Fin 3) * 128 + 1 * f.val = f.val; omega

/-- The adjacency's block at a point is the point's tile of 1024 rows of the batch's adjacency. -/
theorem blk_adjacency (c : Dev nD) (t : Fin cfg0.N) (r : Fin 1024) (k : Fin 2048) :
    iblk0 V c 1 t (ix3 (0 : Fin 1) r k)
      = V c main_arg1 (ix3 (⟨t.val / 2, by have := val_lt t; omega⟩ : Fin 16) (⟨1024 * (t.val % 2) + r.val, by omega⟩ : Fin 2048) k) := by
  obtain ⟨-, -, -, e0, e1, e2, -⟩ := idx_facts t
  show V c main_arg1 (((cfg0.win 1).blk t).view.emb (ix3 (0 : Fin 1) r k)) = _
  refine congrArg (V c main_arg1) ?_
  funext a; apply Fin.ext
  match a with
  | ⟨0, _⟩ => show win0_1.index t (0 : Fin 3) * 1 + 1 * 0 = t.val / 2; omega
  | ⟨1, _⟩ => show win0_1.index t (1 : Fin 3) * 1024 + 1 * r.val = 1024 * (t.val % 2) + r.val; omega
  | ⟨2, _⟩ => show win0_1.index t (2 : Fin 3) * 2048 + 1 * k.val = k.val; omega

/-- The weight's block is the whole weight. -/
theorem blk_weight (c : Dev nD) (t : Fin cfg0.N) (f : Fin 128) (k : Fin 32) :
    iblk0 V c 2 t (ix2 f k) = V c main_arg2 (ix2 f k) := by
  obtain ⟨-, -, -, -, -, -, e0, e1, -⟩ := idx_facts t
  show V c main_arg2 (((cfg0.win 2).blk t).view.emb (ix2 f k)) = _
  refine congrArg (V c main_arg2) ?_
  funext a; apply Fin.ext
  match a with
  | ⟨0, _⟩ => show win0_2.index t (0 : Fin 2) * 128 + 1 * f.val = f.val; omega
  | ⟨1, _⟩ => show win0_2.index t (1 : Fin 2) * 32 + 1 * k.val = k.val; omega

/-- The bias row's block is the whole row. -/
theorem blk_bias (c : Dev nD) (t : Fin cfg0.N) (k : Fin 32) :
    iblk0 V c 3 t (ix2 (0 : Fin 1) k) = V c main_v0 (ix2 (0 : Fin 1) k) := by
  obtain ⟨-, -, -, -, -, -, -, -, e0, e1, -⟩ := idx_facts t
  show V c main_v0 (((cfg0.win 3).blk t).view.emb (ix2 (0 : Fin 1) k)) = _
  refine congrArg (V c main_v0) ?_
  funext a; apply Fin.ext
  match a with
  | ⟨0, _⟩ => show win0_3.index t (0 : Fin 2) * 1 + 1 * 0 = 0; omega
  | ⟨1, _⟩ => show win0_3.index t (1 : Fin 2) * 32 + 1 * k.val = k.val; omega

/-- Where the output's block at a point sits in the output array. -/
theorem emb_out (t : Fin cfg0.N) (r : Fin 1024) (k : Fin 32) :
    ((cfg0.win 4).blk t).view.emb (ix3 (0 : Fin 1) r k)
      = ix3 (⟨t.val / 2, by have := val_lt t; omega⟩ : Fin 16) (⟨1024 * (t.val % 2) + r.val, by omega⟩ : Fin 2048) k := by
  obtain ⟨-, -, -, -, -, -, -, -, -, -, e0, e1, e2⟩ := idx_facts t
  funext a; apply Fin.ext
  match a with
  | ⟨0, _⟩ => show win0_4.index t (0 : Fin 3) * 1 + 1 * 0 = t.val / 2; omega
  | ⟨1, _⟩ => show win0_4.index t (1 : Fin 3) * 1024 + 1 * r.val = 1024 * (t.val % 2) + r.val; omega
  | ⟨2, _⟩ => show win0_4.index t (2 : Fin 3) * 32 + 1 * k.val = k.val; omega

/-- What point `t` writes back is block `t` of the layer. -/
theorem flushed_eq (c : Dev nD) (t : Fin cfg0.N) :
    (dat0 V c).flushed 4 t = ((cfg0.win 4).blk t).view.read (Elt Ideal) (H1 V c) := by
  show (cfg0.win 4).cut (grid0.coords t) ((dat0 V c).after 4 t) = _
  rw [after0_4]
  unfold out0_4
  rw [View.canon_unit_zero hz3]
  simp only [View.ld_unit_zero (S := S1x2048x128) hz3, View.ld_unit_zero (S := S1x1024x2048) hz3,
    View.ld_unit_zero (S := S128x32) hz2, View.ld_unit_zero (S := S1x32) hz2]
  funext j
  obtain ⟨u, r, k, rfl⟩ : ∃ (u : Fin 1) (r : Fin 1024) (k : Fin 32), j = ix3 u r k := ⟨j 0, j 1, j 2, eq_ix3 j⟩
  obtain rfl : u = 0 := Subsingleton.elim _ _
  show k0_pay1 (iblk0 V c 0 t) (iblk0 V c 2 t) (iblk0 V c 1 t) (iblk0 V c 3 t) (ix3 (0 : Fin 1) r k)
    = H1 V c (((cfg0.win 4).blk t).view.emb (ix3 (0 : Fin 1) r k))
  refine (pay_apply (iblk0 V c 0 t) (iblk0 V c 2 t) (iblk0 V c 1 t) (iblk0 V c 3 t) r k).trans ?_
  rw [emb_out t r k]
  unfold H1
  rw [Cert.GcnSpec.layer_ix3]
  unfold Cert.GcnSpec.layerAt Cert.GcnSpec.preact Cert.GcnSpec.transformed
  refine congrArg Cert.GcnSpec.elu (congrArg₂ (· + ·) ?_ (blk_bias V c t k))
  refine Finset.sum_congr rfl fun m _ => ?_
  refine congrArg₂ (· * ·) (blk_adjacency V c t r m) ?_
  refine Finset.sum_congr rfl fun f _ => ?_
  exact congrArg₂ (· * ·) (blk_features V c t m f) (blk_weight V c t f k)

/-- An index of the output array is in point `t`'s block iff each coordinate is in the block's range on its axis. -/
theorem mem_blk (t : Fin cfg0.N) (i : S16x2048x32.Idx) :
    i ∈ ((cfg0.win 4).blk t).view.set ↔ ∀ a : Fin 3, win0_4.index t a * S1x1024x32.size a ≤ (i a).val ∧ (i a).val < win0_4.index t a * S1x1024x32.size a + S1x1024x32.size a := by
  show i ∈ ((View.whole main_v1).slice (win0_4.rect t)).set ↔ _
  rw [View.set_slice_whole, Rect.mem_set_unit]
  exact Iff.rfl

/-- Every entry of the output is in the block of the point of its batch and row tile. -/
theorem cover (i : S16x2048x32.Idx) :
    ∃ t : Fin cfg0.N, (cfg0.win 4).flush t = true ∧ i ∈ ((cfg0.win 4).blk t).view.set := by
  have h0 : (i 0).val < 16 := (i 0).isLt
  have h1 : (i 1).val < 2048 := (i 1).isLt
  have h2 : (i 2).val < 32 := (i 2).isLt
  obtain ⟨t, ht⟩ : ∃ t : Fin cfg0.N, t.val = 2 * (i 0).val + (i 1).val / 1024 :=
    ⟨⟨2 * (i 0).val + (i 1).val / 1024, by rw [show cfg0.N = 32 from N_0]; omega⟩, rfl⟩
  refine ⟨t, flush0_4 t, ?_⟩
  rw [mem_blk]
  obtain ⟨-, -, -, -, -, -, -, -, -, -, e0, e1, e2⟩ := idx_facts t
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 32 ≤ (i 2).val ∧ (i 2).val < win0_4.index t (2 : Fin 3) * 32 + 32; omega

/-- The output array after the kernel has run is the layer of the arrays the kernel found. -/
theorem final0 (c : Dev nD) : (dat0 V c).arrAt 4 cfg0.N = H1 V c :=
  (dat0 V c).arrAt_eq_of_cover 4 (H1 V c) (fun t _ => flushed_eq V c t) cover

end Cert.KernelIdeal.Layer1

end
-- ==== Proof.PoolPieces.lean ====
/-
  What one grid point of the pooling region leaves in the output block, as a pure term of the blocks it loads.

  The body computes, for the 1024 rows of its adjacency tile, the activated second-layer rows and adds their column
  sums to what the [1, 1, 32] output block holds. At the first tile of a batch it stores the zero block first and
  reads it back, so it leaves zero plus the tile's sums; at the second tile it leaves the block's previous contents
  plus the tile's sums. Both are one covering store of the same arithmetic term, differing only in the block added to.
-/
import proofs.«177277_j5901285064811_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.PoolValue

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- At a second-tile point the body leaves, in the output block holding `xo`, the block `xo` plus the column sums of
    the tile's activated rows: its one covering store's payload, whose loads read the whole buffers. -/
theorem out_B (c : Dev nD) (i : grid1.Coords) (a2 : Memref sig .tc .vmem S1x2048x32 .f32) (h2 : a2.IsWhole)
    (a3 : Memref sig .tc .vmem S1x1024x2048 .f32) (h3 : a3.IsWhole) (a4 : Memref sig .tc .vmem S32x32 .f32) (h4 : a4.IsWhole)
    (a5 : Memref sig .tc .vmem S1x32 .f32) (h5 : a5.IsWhole) (a6 : Memref sig .tc .vmem S1x1x32 .f32) (h6 : a6.IsWhole)
    (hc : ¬cond1_0 i) (x0 : Vec F S1x2048x32 .f32) (x1 : Vec F S1x1024x2048 .f32) (x2 : Vec F S32x32 .f32)
    (x3 : Vec F S1x32 .f32) (xo : Vec F S1x1x32 .f32) :
    out1_B_4 c i a2 h2 a3 h3 a4 h4 a5 h5 a6 h6 hc x0 x1 x2 x3 xo = k1_pay1 (k1_pay3 x0 x2 x1 x3 xo) := by
  unfold out1_B_4
  rw [View.read_writes_eq_canon _ _ _ (cover1_B_4 c i a2 h2 a3 h3 a4 h4 a5 h5 a6 h6 hc x0 x1 x2 x3 xo)]
  unfold kernelRun1_B
  dsimp only
  sl_unfold_words
  rw [View.canon_unit_zero hz3]
  simp only [View.readAt_eq_ld, h2.read_unread, h3.read_unread, h4.read_unread, h5.read_unread, h6.read_unread,
    View.ld_unit_zero (S := S1x2048x32) hz3, View.ld_unit_zero (S := S1x1024x2048) hz3, View.ld_unit_zero (S := S32x32) hz2,
    View.ld_unit_zero (S := S1x32) hz2, View.ld_unit_zero (S := S1x1x32) hz3]

/-- At a first-tile point the body first stores the zero block, reads it back, and leaves zero plus the column sums of
    the tile's activated rows. -/
theorem out_A (c : Dev nD) (i : grid1.Coords) (a2 : Memref sig .tc .vmem S1x2048x32 .f32) (h2 : a2.IsWhole)
    (a3 : Memref sig .tc .vmem S1x1024x2048 .f32) (h3 : a3.IsWhole) (a4 : Memref sig .tc .vmem S32x32 .f32) (h4 : a4.IsWhole)
    (a5 : Memref sig .tc .vmem S1x32 .f32) (h5 : a5.IsWhole) (a6 : Memref sig .tc .vmem S1x1x32 .f32) (h6 : a6.IsWhole)
    (hc : cond1_0 i) (x0 : Vec F S1x2048x32 .f32) (x1 : Vec F S1x1024x2048 .f32) (x2 : Vec F S32x32 .f32)
    (x3 : Vec F S1x32 .f32) :
    out1_A_4 c i a2 h2 a3 h3 a4 h4 a5 h5 a6 h6 hc x0 x1 x2 x3 = k1_pay1 (k1_pay3 x0 x2 x1 x3 (k1_pay2 (F := F))) := by
  unfold out1_A_4
  rw [View.read_writes_eq_canon _ _ _ (cover1_A_4 c i a2 h2 a3 h3 a4 h4 a5 h5 a6 h6 hc x0 x1 x2 x3)]
  unfold kernelRun1_A
  dsimp only
  sl_unfold_words
  rw [View.canon_cons_unit_zero (S := S1x1x32) hz3, View.readCov_unit_zero (S := S1x1x32) _ hz3]
  simp only [View.readAt_eq_ld, h2.read_unread, h3.read_unread, h4.read_unread, h5.read_unread,
    View.ld_unit_zero (S := S1x2048x32) hz3, View.ld_unit_zero (S := S1x1024x2048) hz3, View.ld_unit_zero (S := S32x32) hz2,
    View.ld_unit_zero (S := S1x32) hz2]

end Cert.KernelIdeal.PoolValue

end
-- ==== Proof.PoolPayload.lean ====
/-
  The pooling region's arithmetic, read entry by entry on the extended reals.

  One grid point holds a batch's first-layer block `h` ([1, 2048, 32]), a tile of 1024 rows of its adjacency
  ([1, 1024, 2048]), the weight `w` ([32, 32]) and the bias ([1, 32]). It forms the transformed features
  `(h · w)[m, c] = ∑ f, h[m, f] · w[f, c]`, the tile's rows `z[r, c] = ∑ m, a[r, m] · (h · w)[m, c] + bias[c]`,
  the activation `elu z` (computed as a selection on `z > 0` between `z` and `exp (min z 0) - 1`), and the column
  sums `∑ r, elu z[r, c]`, which it adds to the output block. A change of float format is the identity here, and a
  product into a zero accumulator is the plain sum of products.
-/
import proofs.«177277_j5901285064811_2_alg».proof.Proof.Gen.KernelIdeal.Frame
import proofs.«177277_j5901285064811_2_alg».proof.Proof.Spec
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.PoolValue

open Cert.KernelIdeal Cert.KernelIdeal.Gen ValueIdx

variable {F : FTy → Type} [FloatOps F]

/-! ## The body's term, stage by stage -/

/-- The transformed features of the batch's block: `h · w`, a [2048, 32] array. -/
def feat (x0 : Vec F S1x2048x32 .f32) (x2 : Vec F S32x32 .f32) : FVec F S2048x32 .bf16 :=
  truncf .bf16 (matmul dot_S2048x32_S32x32_S2048x32_1_0_0_1_n_n none
      (truncf .bf16 (shapeCast S2048x32 x0 shapeCasts_S1x2048x32_S2048x32) bitsLt_bf16_f32)
      (truncf .bf16 x2 bitsLt_bf16_f32) (constant S2048x32 .f32 0x00000000#32)) bitsLt_bf16_f32

/-- The tile's rows before the activation: the adjacency tile against the transformed features, plus the bias. -/
def pre (x0 : Vec F S1x2048x32 .f32) (x2 : Vec F S32x32 .f32) (x1 : Vec F S1x1024x2048 .f32) (x3 : Vec F S1x32 .f32) :
    FVec F S1024x32 .f32 :=
  addf (matmul dot_S1024x2048_S2048x32_S1024x32_1_0_0_1_n_n none
      (truncf .bf16 (shapeCast S1024x2048 x1 shapeCasts_S1x1024x2048_S1024x2048) bitsLt_bf16_f32)
      (feat x0 x2) (constant S1024x32 .f32 0x00000000#32))
    (broadcastTo S1024x32 (shapeCast S1x32 x3 shapeCasts_S1x32_S1x32) broadcasts_S1x32_S1024x32)

/-- The activation as the body computes it: a selection on `z > 0` between `z` and `exp (min z 0) - 1`. -/
def act (z : FVec F S1024x32 .f32) : FVec F S1024x32 .f32 :=
  select (cmpf .ogt z (broadcast S1024x32 (Scalar.ofBits .f32 0x00000000#32))) z
    (subf (exp (minimumf z (broadcast S1024x32 (Scalar.ofBits .f32 0x00000000#32))))
      (broadcast S1024x32 (Scalar.ofBits .f32 0x3F800000#32)))

/-- The column sums of a [1024, 32] array, as a [1, 32] row. -/
def colsum (y : FVec F S1024x32 .f32) : FVec F S1x32 .f32 :=
  shapeCast S1x32 (multiReduction .add [0] S32 y 0x00000000#32 reduces_S1024x32_S32 (.inl rfl) rfl) shapeCasts_S32_S1x32

/-- The body's sum: the block it adds to, plus the column sums of the tile's activated rows. -/
theorem pay3_eq (x0 : Vec F S1x2048x32 .f32) (x2 : Vec F S32x32 .f32) (x1 : Vec F S1x1024x2048 .f32) (x3 : Vec F S1x32 .f32)
    (xo : Vec F S1x1x32 .f32) :
    k1_pay3 x0 x2 x1 x3 xo = addf (shapeCast S1x32 xo shapeCasts_S1x1x32_S1x32) (colsum (act (pre x0 x2 x1 x3))) := rfl

/-! ## The stages read at an index, on the extended reals -/

open Cert.GcnSpec

theorem lhsHW_0 (i : S2048x32.Idx) (q : dot_S2048x32_S32x32_S2048x32_1_0_0_1_n_n.contr.Idx) : (dot_S2048x32_S32x32_S2048x32_1_0_0_1_n_n.lhsIdx i q 0).val = (i 0).val := by
  unfold DotDims.lhsIdx
  rw [dif_neg (show ¬(0 : Fin S2048x32.rank) ∈ dot_S2048x32_S32x32_S2048x32_1_0_0_1_n_n.lhsBatch by decide),
    dif_pos (show (0 : Fin S2048x32.rank) ∈ dot_S2048x32_S32x32_S2048x32_1_0_0_1_n_n.lhsNonContracting by decide)]
  rfl

theorem rhsHW_1 (i : S2048x32.Idx) (q : dot_S2048x32_S32x32_S2048x32_1_0_0_1_n_n.contr.Idx) : (dot_S2048x32_S32x32_S2048x32_1_0_0_1_n_n.rhsIdx i q 1).val = (i 1).val := by
  unfold DotDims.rhsIdx
  rw [dif_neg (show ¬(1 : Fin S32x32.rank) ∈ dot_S2048x32_S32x32_S2048x32_1_0_0_1_n_n.rhsBatch by decide),
    dif_pos (show (1 : Fin S32x32.rank) ∈ dot_S2048x32_S32x32_S2048x32_1_0_0_1_n_n.rhsNonContracting by decide)]
  rfl

theorem lhsAH_0 (i : S1024x32.Idx) (q : dot_S1024x2048_S2048x32_S1024x32_1_0_0_1_n_n.contr.Idx) : (dot_S1024x2048_S2048x32_S1024x32_1_0_0_1_n_n.lhsIdx i q 0).val = (i 0).val := by
  unfold DotDims.lhsIdx
  rw [dif_neg (show ¬(0 : Fin S1024x2048.rank) ∈ dot_S1024x2048_S2048x32_S1024x32_1_0_0_1_n_n.lhsBatch by decide),
    dif_pos (show (0 : Fin S1024x2048.rank) ∈ dot_S1024x2048_S2048x32_S1024x32_1_0_0_1_n_n.lhsNonContracting by decide)]
  rfl

theorem rhsAH_1 (i : S1024x32.Idx) (q : dot_S1024x2048_S2048x32_S1024x32_1_0_0_1_n_n.contr.Idx) : (dot_S1024x2048_S2048x32_S1024x32_1_0_0_1_n_n.rhsIdx i q 1).val = (i 1).val := by
  unfold DotDims.rhsIdx
  rw [dif_neg (show ¬(1 : Fin S2048x32.rank) ∈ dot_S1024x2048_S2048x32_S1024x32_1_0_0_1_n_n.rhsBatch by decide),
    dif_pos (show (1 : Fin S2048x32.rank) ∈ dot_S1024x2048_S2048x32_S1024x32_1_0_0_1_n_n.rhsNonContracting by decide)]
  rfl

/-- The transformed features at `(m, c)`: `∑ f, h[m, f] · w[f, c]`. -/
theorem feat_apply (x0 : Vec Ideal S1x2048x32 .f32) (x2 : Vec Ideal S32x32 .f32) (m : Fin 2048) (c : Fin 32) :
    feat x0 x2 (ix2 m c) = ∑ f : Fin 32, x0 (ix3 0 m f) * x2 (ix2 f c) := by
  unfold feat
  refine (Ideal.matmul_constant_zero_apply dot_S2048x32_S32x32_S2048x32_1_0_0_1_n_n none _ _ (ix2 m c)).trans ?_
  rw [← Equiv.sum_comp (contrEquiv1 dot_S2048x32_S32x32_S2048x32_1_0_0_1_n_n 32 rfl rfl).symm]
  refine Finset.sum_congr rfl fun k _ => ?_
  have hk := contrEquiv1_symm_val dot_S2048x32_S32x32_S2048x32_1_0_0_1_n_n 32 rfl rfl k
  have el : dot_S2048x32_S32x32_S2048x32_1_0_0_1_n_n.lhsIdx (ix2 m c) ((contrEquiv1 dot_S2048x32_S32x32_S2048x32_1_0_0_1_n_n 32 rfl rfl).symm k) = ix2 m k := funext fun a => Fin.ext (by
    match a with
    | ⟨0, _⟩ => exact lhsHW_0 _ _
    | ⟨1, _⟩ => exact (dot_S2048x32_S32x32_S2048x32_1_0_0_1_n_n.lhsIdx_val_of_single rfl _ _).trans hk)
  have er : dot_S2048x32_S32x32_S2048x32_1_0_0_1_n_n.rhsIdx (ix2 m c) ((contrEquiv1 dot_S2048x32_S32x32_S2048x32_1_0_0_1_n_n 32 rfl rfl).symm k) = ix2 k c := funext fun a => Fin.ext (by
    match a with
    | ⟨0, _⟩ => exact (dot_S2048x32_S32x32_S2048x32_1_0_0_1_n_n.rhsIdx_val_of_single rfl _ _).trans hk
    | ⟨1, _⟩ => exact rhsHW_1 _ _)
  rw [el, er]
  refine congrArg (· * x2 (ix2 k c)) ?_
  exact shapeCast_apply x0 shapeCasts_S1x2048x32_S2048x32 (ix2 m k) (ix3 0 m k) (by
    rw [Shape.rowMajor_val_three, Shape.rowMajor_val_two]
    show ((0 : Fin 1).val * 2048 + m.val) * 32 + k.val = m.val * 32 + k.val
    simp)

/-- A tile row before the activation at `(r, c)`: `∑ m, a[r, m] · (h · w)[m, c] + bias[c]`. -/
theorem pre_apply (x0 : Vec Ideal S1x2048x32 .f32) (x2 : Vec Ideal S32x32 .f32) (x1 : Vec Ideal S1x1024x2048 .f32)
    (x3 : Vec Ideal S1x32 .f32) (r : Fin 1024) (c : Fin 32) :
    pre x0 x2 x1 x3 (ix2 r c) = (∑ m : Fin 2048, x1 (ix3 0 r m) * feat x0 x2 (ix2 m c)) + x3 (ix2 0 c) := by
  unfold pre
  refine congrArg₂ (· + ·) ?_ ?_
  · refine (Ideal.matmul_constant_zero_apply dot_S1024x2048_S2048x32_S1024x32_1_0_0_1_n_n none _ _ (ix2 r c)).trans ?_
    rw [← Equiv.sum_comp (contrEquiv1 dot_S1024x2048_S2048x32_S1024x32_1_0_0_1_n_n 2048 rfl rfl).symm]
    refine Finset.sum_congr rfl fun k _ => ?_
    have hk := contrEquiv1_symm_val dot_S1024x2048_S2048x32_S1024x32_1_0_0_1_n_n 2048 rfl rfl k
    have el : dot_S1024x2048_S2048x32_S1024x32_1_0_0_1_n_n.lhsIdx (ix2 r c) ((contrEquiv1 dot_S1024x2048_S2048x32_S1024x32_1_0_0_1_n_n 2048 rfl rfl).symm k) = ix2 r k := funext fun a => Fin.ext (by
      match a with
      | ⟨0, _⟩ => exact lhsAH_0 _ _
      | ⟨1, _⟩ => exact (dot_S1024x2048_S2048x32_S1024x32_1_0_0_1_n_n.lhsIdx_val_of_single rfl _ _).trans hk)
    have er : dot_S1024x2048_S2048x32_S1024x32_1_0_0_1_n_n.rhsIdx (ix2 r c) ((contrEquiv1 dot_S1024x2048_S2048x32_S1024x32_1_0_0_1_n_n 2048 rfl rfl).symm k) = ix2 k c := funext fun a => Fin.ext (by
      match a with
      | ⟨0, _⟩ => exact (dot_S1024x2048_S2048x32_S1024x32_1_0_0_1_n_n.rhsIdx_val_of_single rfl _ _).trans hk
      | ⟨1, _⟩ => exact rhsAH_1 _ _)
    rw [el, er]
    refine congrArg (· * feat x0 x2 (ix2 k c)) ?_
    exact shapeCast_apply x1 shapeCasts_S1x1024x2048_S1024x2048 (ix2 r k) (ix3 0 r k) (by
      rw [Shape.rowMajor_val_three, Shape.rowMajor_val_two]
      show ((0 : Fin 1).val * 1024 + r.val) * 2048 + k.val = r.val * 2048 + k.val
      simp)
  · refine (broadcastTo_apply _ broadcasts_S1x32_S1024x32 (ix2 r c) (ix2 0 c) (fun a => by
      match a with
      | ⟨0, _⟩ => rfl
      | ⟨1, _⟩ => rfl)).trans ?_
    rw [shapeCast_self]

/-- The word of `1.0` denotes one. -/
theorem ofBits_one_f32 : Ideal.ofBits .f32 0x3F800000#32 = 1 := by
  simp [Ideal.ofBits, Ideal.ieee, -EReal.coe_mul]; norm_num

/-- The body's selection is the exponential linear unit. -/
theorem act_apply (z : FVec Ideal S1024x32 .f32) (i : S1024x32.Idx) : act z i = elu (z i) := by
  show Scalar.select (Ideal.cmp .ogt (z i) (Ideal.ofBits .f32 0x00000000#32)) (z i)
      (Ideal.exp (min (z i) (Ideal.ofBits .f32 0x00000000#32)) - Ideal.ofBits .f32 0x3F800000#32) = elu (z i)
  rw [Ideal.ofBits_zero_f32, ofBits_one_f32]
  exact elu_of_min (z i)

/-- The column sums at `c`: `∑ r, y[r, c]`. -/
theorem colsum_apply (y : FVec Ideal S1024x32 .f32) (c : Fin 32) : colsum y (ix2 0 c) = ∑ r : Fin 1024, y (ix2 r c) := by
  unfold colsum
  refine (shapeCast_apply _ shapeCasts_S32_S1x32 (ix2 0 c) (ix1 c) (by
    rw [Shape.rowMajor_val_one, Shape.rowMajor_val_two]
    show c.val = (0 : Fin 1).val * 32 + c.val
    simp)).trans ?_
  refine (Ideal.multiReduction_add_single y _ reduces_S1024x32_S32 (.inl rfl) rfl (ix1 c)).trans ?_
  refine Finset.sum_congr rfl fun r _ => congrArg y ?_
  funext a
  apply Fin.ext
  match a with
  | ⟨0, _⟩ => rfl
  | ⟨1, _⟩ => rfl

/-- What the body stores at column `c`: the entry of the block it adds to, plus the sum over the tile's rows of the
    activated `∑ m, a[r, m] · (∑ f, h[m, f] · w[f, c]) + bias[c]`. -/
theorem pay3_apply (x0 : Vec Ideal S1x2048x32 .f32) (x2 : Vec Ideal S32x32 .f32) (x1 : Vec Ideal S1x1024x2048 .f32)
    (x3 : Vec Ideal S1x32 .f32) (xo : Vec Ideal S1x1x32 .f32) (c : Fin 32) :
    k1_pay3 x0 x2 x1 x3 xo (ix2 0 c)
      = xo (ix3 0 0 c) + ∑ r : Fin 1024,
          elu ((∑ m : Fin 2048, x1 (ix3 0 r m) * ∑ f : Fin 32, x0 (ix3 0 m f) * x2 (ix2 f c)) + x3 (ix2 0 c)) := by
  rw [pay3_eq]
  refine congrArg₂ (· + ·) ?_ ?_
  · exact shapeCast_apply xo shapeCasts_S1x1x32_S1x32 (ix2 0 c) (ix3 0 0 c) (by
      rw [Shape.rowMajor_val_three, Shape.rowMajor_val_two]
      show ((0 : Fin 1).val * 1 + (0 : Fin 1).val) * 32 + c.val = (0 : Fin 1).val * 32 + c.val
      simp)
  · refine (colsum_apply _ c).trans (Finset.sum_congr rfl fun r _ => ?_)
    rw [act_apply, pre_apply]
    refine congrArg (fun s => elu (s + x3 (ix2 0 c))) (Finset.sum_congr rfl fun m _ => ?_)
    rw [feat_apply]

/-- The stored block at `(0, 0, c)` is the row's entry at `(0, c)`. -/
theorem pay1_apply (v : FVec Ideal S1x32 .f32) (c : Fin 32) : k1_pay1 v (ix3 0 0 c) = v (ix2 0 c) := by
  unfold k1_pay1
  exact shapeCast_apply v shapeCasts_S1x32_S1x1x32 (ix3 0 0 c) (ix2 0 c) (by
    rw [Shape.rowMajor_val_three, Shape.rowMajor_val_two]
    show (0 : Fin 1).val * 32 + c.val = ((0 : Fin 1).val * 1 + (0 : Fin 1).val) * 32 + c.val
    simp)

/-- The block the first tile stores first is zero everywhere. -/
theorem pay2_apply (j : S1x1x32.Idx) : k1_pay2 (F := Ideal) j = 0 := by
  unfold k1_pay2
  refine (shapeCast_apply _ shapeCasts_S1x32_S1x1x32 j (ix2 0 (j 2)) (by
    rw [Shape.rowMajor_val_three, Shape.rowMajor_val_two]
    have h0 : (j 0).val = 0 := by have : (j 0).val < 1 := (j 0).isLt; omega
    have h1 : (j 1).val = 0 := by have : (j 1).val < 1 := (j 1).isLt; omega
    show (0 : Fin 1).val * 32 + (j 2).val = ((j 0).val * 1 + (j 1).val) * 32 + (j 2).val
    rw [h0, h1]; simp)).trans ?_
  exact Ideal.ofBits_zero_f32

end Cert.KernelIdeal.PoolValue

end
-- ==== Proof.PoolTile.lean ====
/-
  One tile's stored value against the specification's layer.

  If the blocks a point holds are batch `b` of the node features, the rows `off r` (`r < 1024`) of batch `b` of the
  adjacency, the weight and the bias, then what the point stores at column `c` is the entry of the block it adds to,
  plus `∑ r, layer[b, off r, c]`: the body's arithmetic is the layer's, entry by entry.
-/
import proofs.«177277_j5901285064811_2_alg».proof.Proof.PoolPayload

noncomputable section

open Idealize.ShloMosaic Idealize.ShloMosaic.TcCoe Idealize.SL.Sem
open Idealize.ShloMosaic.Pipeline (Dat)

namespace Cert.KernelIdeal.PoolValue

open Cert.KernelIdeal Cert.KernelIdeal.Gen ValueIdx

open Cert.GcnSpec

/-- What a point stores at column `c`, when its blocks are batch `b`'s features, the adjacency rows `off r` of batch
    `b`, the weight and the bias: the entry it adds to, plus the layer's entries at those rows, summed. -/
theorem tile_sum (h : (⟨3, ![16, 2048, 32]⟩ : Shape).Idx → EReal) (a : (⟨3, ![16, 2048, 2048]⟩ : Shape).Idx → EReal)
    (w : (⟨2, ![32, 32]⟩ : Shape).Idx → EReal) (bias : (⟨1, ![32]⟩ : Shape).Idx → EReal)
    (b : Fin 16) (off : Fin 1024 → Fin 2048)
    (x0 : Vec Ideal S1x2048x32 .f32) (x1 : Vec Ideal S1x1024x2048 .f32) (x2 : Vec Ideal S32x32 .f32) (x3 : Vec Ideal S1x32 .f32)
    (hx0 : ∀ (m : Fin 2048) (f : Fin 32), x0 (ix3 0 m f) = h (ix3 b m f))
    (hx1 : ∀ (r : Fin 1024) (m : Fin 2048), x1 (ix3 0 r m) = a (ix3 b (off r) m))
    (hx2 : ∀ (f : Fin 32) (c : Fin 32), x2 (ix2 f c) = w (ix2 f c))
    (hx3 : ∀ c : Fin 32, x3 (ix2 0 c) = bias (ix1 c))
    (xo : Vec Ideal S1x1x32 .f32) (c : Fin 32) :
    k1_pay1 (k1_pay3 x0 x2 x1 x3 xo) (ix3 0 0 c)
      = xo (ix3 0 0 c) + ∑ r : Fin 1024, layer h a w bias (ix3 b (off r) c) := by
  rw [pay1_apply, pay3_apply]
  refine congrArg (xo (ix3 0 0 c) + ·) (Finset.sum_congr rfl fun r _ => ?_)
  rw [layer_ix3]
  unfold layerAt preact transformed
  simp only [hx0, hx1, hx2, hx3]

end Cert.KernelIdeal.PoolValue

end
-- ==== Proof.PoolValue.lean ====
/-
  The pooled second layer, as the array the pooling region leaves.

  The region runs over a 16 × 2 grid: point `t` is batch `b = t / 2`, row tile `i = t % 2`. It holds batch `b` of the
  first layer's output, rows `1024 i … 1024 i + 1023` of batch `b` of the adjacency, the weight and the bias, and its
  output block is `[b, 0, :]` of a [16, 1, 32] array, visited by both points of the batch and written back after the
  second. At `i = 0` the block is reset, so after the first point it holds `0 + ∑ r < 1024, layer[b, r, c]`, and after
  the second `(0 + ∑ r < 1024, layer[b, r, c]) + ∑ r < 1024, layer[b, 1024 + r, c]`, which is the sum of the layer's
  2048 rows: the pooled value. The sixteen written-back blocks are disjoint and fill the array.
-/
import proofs.«177277_j5901285064811_2_alg».proof.Proof.PoolPieces
import proofs.«177277_j5901285064811_2_alg».proof.Proof.PoolTile

noncomputable section

open Idealize.ShloMosaic Idealize.ShloMosaic.TcCoe Idealize.SL.Sem
open Idealize.ShloMosaic.Pipeline (Dat)

namespace Cert.KernelIdeal.PoolValue

open Cert.KernelIdeal Cert.KernelIdeal.Gen ValueIdx

/-! ## The windows' blocks, read where they sit in their arrays -/

/-- The printed index maps over the 16 × 2 grid: the first-layer block, the adjacency tile and the output block sit
    at batch `t / 2`; the adjacency tile at row tile `t % 2`; the weight and the bias are whole. -/
theorem idx_facts : ∀ t : Fin cfg1.N,
    win1_0.index t (0 : Fin 3) = t.val / 2 ∧ win1_0.index t (1 : Fin 3) = 0 ∧ win1_0.index t (2 : Fin 3) = 0
    ∧ win1_1.index t (0 : Fin 3) = t.val / 2 ∧ win1_1.index t (1 : Fin 3) = t.val % 2 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val / 2 ∧ win1_4.index t (1 : Fin 3) = 0 ∧ win1_4.index t (2 : Fin 3) = 0 :=
  (by decide +kernel : ∀ t : Fin grid1.N, _)

variable (V : (c : Dev nD) → (b : Ref sig .tc) → Buf (Elt Ideal) ((c : Thread nD τ).loc b))

/-- The first-layer block at point `t` is batch `t / 2` of the first layer's output. -/
theorem iblk_h (c : Dev nD) (t : Fin cfg1.N) (b : Fin 16) (hb : t.val / 2 = b.val) (m : Fin 2048) (f : Fin 32) :
    (iblk1 V c 0 t : Vec Ideal S1x2048x32 .f32) (ix3 0 m f) = (V c main_v1 : S16x2048x32.Idx → EReal) (ix3 b m f) := by
  obtain ⟨e0, e1, e2, -⟩ := idx_facts t
  unfold iblk1
  rw [View.read_apply]
  show V c main_v1 _ = V c main_v1 _
  congr 1
  funext a
  apply Fin.ext
  match a with
  | ⟨0, _⟩ => show win1_0.index t (0 : Fin 3) * 1 + 1 * (0 : Fin 1).val = b.val; rw [e0, hb]; simp
  | ⟨1, _⟩ => show win1_0.index t (1 : Fin 3) * 2048 + 1 * m.val = m.val; rw [e1]; omega
  | ⟨2, _⟩ => show win1_0.index t (2 : Fin 3) * 32 + 1 * f.val = f.val; rw [e2]; omega

/-- The adjacency tile at point `t` is rows `1024 · (t % 2) …` of batch `t / 2` of the adjacency. -/
theorem iblk_a (c : Dev nD) (t : Fin cfg1.N) (b : Fin 16) (hb : t.val / 2 = b.val) (r : Fin 1024) (n : Fin 2048)
    (hn : n.val = 1024 * (t.val % 2) + r.val) (k : Fin 2048) :
    (iblk1 V c 1 t : Vec Ideal S1x1024x2048 .f32) (ix3 0 r k) = (V c main_arg1 : S16x2048x2048.Idx → EReal) (ix3 b n k) := by
  obtain ⟨-, -, -, e0, e1, e2, -⟩ := idx_facts t
  unfold iblk1
  rw [View.read_apply]
  show V c main_arg1 _ = V c main_arg1 _
  congr 1
  funext a
  apply Fin.ext
  match a with
  | ⟨0, _⟩ => show win1_1.index t (0 : Fin 3) * 1 + 1 * (0 : Fin 1).val = b.val; rw [e0, hb]; simp
  | ⟨1, _⟩ => show win1_1.index t (1 : Fin 3) * 1024 + 1 * r.val = n.val; rw [e1, hn]; omega
  | ⟨2, _⟩ => show win1_1.index t (2 : Fin 3) * 2048 + 1 * k.val = k.val; rw [e2]; omega

/-- The weight's block is the weight. -/
theorem iblk_w (c : Dev nD) (t : Fin cfg1.N) (f : Fin 32) (col : Fin 32) :
    (iblk1 V c 2 t : Vec Ideal S32x32 .f32) (ix2 f col) = (V c main_arg4 : S32x32.Idx → EReal) (ix2 f col) := by
  obtain ⟨-, -, -, -, -, -, e0, e1, -⟩ := idx_facts t
  unfold iblk1
  rw [View.read_apply]
  show V c main_arg4 _ = V c main_arg4 _
  congr 1
  funext a
  apply Fin.ext
  match a with
  | ⟨0, _⟩ => show win1_2.index t (0 : Fin 2) * 32 + 1 * f.val = f.val; rw [e0]; omega
  | ⟨1, _⟩ => show win1_2.index t (1 : Fin 2) * 32 + 1 * col.val = col.val; rw [e1]; omega

/-- The bias row's block is the bias row. -/
theorem iblk_b (c : Dev nD) (t : Fin cfg1.N) (col : Fin 32) :
    (iblk1 V c 3 t : Vec Ideal S1x32 .f32) (ix2 0 col) = (V c main_v2 : S1x32.Idx → EReal) (ix2 0 col) := by
  obtain ⟨-, -, -, -, -, -, -, -, e0, e1, -⟩ := idx_facts t
  unfold iblk1
  rw [View.read_apply]
  show V c main_v2 _ = V c main_v2 _
  congr 1
  funext a
  apply Fin.ext
  match a with
  | ⟨0, _⟩ => show win1_3.index t (0 : Fin 2) * 1 + 1 * (0 : Fin 1).val = (0 : Fin 1).val; rw [e0]; simp
  | ⟨1, _⟩ => show win1_3.index t (1 : Fin 2) * 32 + 1 * col.val = col.val; rw [e1]; omega

open Cert.GcnSpec

/-- The second layer, of the arrays as the region finds them. -/
abbrev L (c : Dev nD) : (⟨3, ![16, 2048, 32]⟩ : Shape).Idx → EReal :=
  layer (V c main_v1) (V c main_arg1) (V c main_arg4) (fun i => V c main_v2 (ix2 0 (i 0)))

/-- What point `t` (batch `b`, rows `off r` of the adjacency) stores at column `col` over a block `xo`: the block's
    entry plus the layer's entries at those rows, summed. -/
theorem point_sum (c : Dev nD) (t : Fin cfg1.N) (b : Fin 16) (hb : t.val / 2 = b.val) (off : Fin 1024 → Fin 2048)
    (hoff : ∀ r, (off r).val = 1024 * (t.val % 2) + r.val) (xo : Vec Ideal S1x1x32 .f32) (col : Fin 32) :
    k1_pay1 (k1_pay3 (iblk1 V c 0 t) (iblk1 V c 2 t) (iblk1 V c 1 t) (iblk1 V c 3 t) xo) (ix3 0 0 col)
      = xo (ix3 0 0 col) + ∑ r : Fin 1024, L V c (ix3 b (off r) col) :=
  tile_sum (V c main_v1) (V c main_arg1) (V c main_arg4) (fun i => V c main_v2 (ix2 0 (i 0))) b off
    (iblk1 V c 0 t) (iblk1 V c 1 t) (iblk1 V c 2 t) (iblk1 V c 3 t)
    (fun m f => iblk_h V c t b hb m f) (fun r m => iblk_a V c t b hb r (off r) (hoff r) m)
    (fun f cc => iblk_w V c t f cc) (fun cc => iblk_b V c t cc) xo col

/-! ## The output block after each point -/

/-- After the first point of batch `b` the block holds zero plus the first tile's sums. -/
theorem outsAt_even (c : Dev nD) (t : Fin cfg1.N) (b : Fin 16) (ht : t.val = 2 * b.val) (col : Fin 32) :
    (outsAt1 V c t.val t.isLt : Vec Ideal S1x1x32 .f32) (ix3 0 0 col)
      = 0 + ∑ r : Fin 1024, L V c (ix3 b ⟨r.val, by omega⟩ col) := by
  have h0 : t.val % 2 = 0 := by omega
  rw [outsAt1_A V c t h0]
  refine (congrFun (out_A (F := Ideal) c (grid1.coords t) (ms1_0 t) (hs1_0 t) (ms1_1 t) (hs1_1 t) (ms1_2 t) (hs1_2 t)
    (ms1_3 t) (hs1_3 t) (ms1_4 t) (hs1_4 t) ((hcond1_0 t).mpr h0)
    (iblk1 V c 0 t) (iblk1 V c 1 t) (iblk1 V c 2 t) (iblk1 V c 3 t)) (ix3 0 0 col)).trans ?_
  refine (point_sum V c t b (by omega) (fun r => ⟨r.val, by omega⟩) (fun r => by
    show r.val = 1024 * (t.val % 2) + r.val
    omega) (k1_pay2 (F := Ideal)) col).trans ?_
  rw [pay2_apply]

/-- After the second point of batch `b` it holds that plus the second tile's sums. -/
theorem outsAt_odd (c : Dev nD) (t : Fin cfg1.N) (b : Fin 16) (ht : t.val = 2 * b.val + 1) (col : Fin 32) :
    (outsAt1 V c t.val t.isLt : Vec Ideal S1x1x32 .f32) (ix3 0 0 col)
      = (0 + ∑ r : Fin 1024, L V c (ix3 b ⟨r.val, by omega⟩ col))
        + ∑ r : Fin 1024, L V c (ix3 b ⟨1024 + r.val, by omega⟩ col) := by
  have h0 : ¬t.val % 2 = 0 := by omega
  rw [outsAt1_B V c t h0]
  refine (congrFun (out_B (F := Ideal) c (grid1.coords t) (ms1_0 t) (hs1_0 t) (ms1_1 t) (hs1_1 t) (ms1_2 t) (hs1_2 t)
    (ms1_3 t) (hs1_3 t) (ms1_4 t) (hs1_4 t) (fun h => h0 ((hcond1_0 t).mp h))
    (iblk1 V c 0 t) (iblk1 V c 1 t) (iblk1 V c 2 t) (iblk1 V c 3 t)
    (outsAt1 V c (t.val - 1) (Nat.lt_of_le_of_lt (Nat.sub_le _ _) t.isLt))) (ix3 0 0 col)).trans ?_
  refine (point_sum V c t b (by omega) (fun r => ⟨1024 + r.val, by omega⟩) (fun r => by
    show 1024 + r.val = 1024 * (t.val % 2) + r.val
    omega) (outsAt1 V c (t.val - 1) (Nat.lt_of_le_of_lt (Nat.sub_le _ _) t.isLt)) col).trans ?_
  refine congrArg (· + ∑ r : Fin 1024, L V c (ix3 b ⟨1024 + r.val, by omega⟩ col)) ?_
  exact outsAt_even V c ⟨t.val - 1, Nat.lt_of_le_of_lt (Nat.sub_le _ _) t.isLt⟩ b (by show t.val - 1 = 2 * b.val; omega) col

/-! ## From the written-back blocks to the array -/

/-- The pooled second layer as a [16, 1, 32] array. -/
abbrev G (c : Dev nD) : S16x1x32.Idx → EReal := fun j => pool (L V c) (j 0) (j 2)

/-- What a second-tile point writes back is its block of the pooled array. -/
theorem flushed_eq (c : Dev nD) (t : Fin cfg1.N) (hf : (cfg1.win 4).flush t = true) :
    (dat1 V c).flushed 4 t = ((cfg1.win 4).blk t).view.read (Elt Ideal) (G V c) := by
  have hN : t.val < 32 := lt_of_lt_of_eq t.isLt (show cfg1.N = 32 from N_1)
  have h1 : t.val % 2 = 1 := (flush1_4 t).mp hf
  obtain ⟨-, -, -, -, -, -, -, -, -, -, e0, e1, e2⟩ := idx_facts t
  show (cfg1.win 4).cut (grid1.coords t) ((dat1 V c).after 4 t) = _
  rw [after1_4]
  refine funext fun (j : S1x1x32.Idx) => ?_
  obtain ⟨col, rfl⟩ : ∃ col : Fin 32, j = ix3 0 0 col := ⟨j 2, funext fun a => Fin.ext (by
    match a with
    | ⟨0, _⟩ => have : (j 0).val < 1 := (j 0).isLt; show (j 0).val = 0; omega
    | ⟨1, _⟩ => have : (j 1).val < 1 := (j 1).isLt; show (j 1).val = 0; omega
    | ⟨2, _⟩ => rfl)⟩
  rw [View.read_apply]
  have he : (((cfg1.win 4).blk t).view.emb (ix3 0 0 col) : S16x1x32.Idx) = ix3 ⟨t.val / 2, by omega⟩ 0 col :=
    funext fun a => Fin.ext (by
      match a with
      | ⟨0, _⟩ => show win1_4.index t (0 : Fin 3) * 1 + 1 * (0 : Fin 1).val = t.val / 2; rw [e0]; simp
      | ⟨1, _⟩ => show win1_4.index t (1 : Fin 3) * 1 + 1 * (0 : Fin 1).val = (0 : Fin 1).val; rw [e1]; simp
      | ⟨2, _⟩ => show win1_4.index t (2 : Fin 3) * 32 + 1 * col.val = col.val; rw [e2]; omega)
  refine Eq.trans ?_ (congrArg (G V c) he).symm
  show (outsAt1 V c t.val t.isLt : Vec Ideal S1x1x32 .f32) (ix3 0 0 col) = pool (L V c) ⟨t.val / 2, by omega⟩ col
  rw [outsAt_odd V c t ⟨t.val / 2, by omega⟩ (by show t.val = 2 * (t.val / 2) + 1; omega) col, zero_add]
  exact (sum_two_tiles fun n => L V c (ix3 ⟨t.val / 2, by omega⟩ n col)).symm

/-- An index of the array is in point `t`'s block iff each coordinate is in the block's range on its axis. -/
theorem mem_blk (t : Fin cfg1.N) (i : S16x1x32.Idx) :
    i ∈ ((cfg1.win 4).blk t).view.set
      ↔ ∀ a : Fin 3, win1_4.index t a * S1x1x32.size a ≤ (i a).val ∧ (i a).val < win1_4.index t a * S1x1x32.size a + S1x1x32.size a := by
  show i ∈ ((View.whole main_v3).slice (win1_4.rect t)).set ↔ _
  rw [View.set_slice_whole, Rect.mem_set_unit]
  exact Iff.rfl

/-- THE RESULT: after the region the [16, 1, 32] array holds the pooled second layer. Batch `b`'s block is written
    back by the batch's second point, and the sixteen blocks fill the array. -/
theorem final1 (c : Dev nD) :
    (dat1 (F := Ideal) V c).arrAt 4 cfg1.N
      = fun j => pool (layer (V c main_v1) (V c main_arg1) (V c main_arg4) (fun i => V c main_v2 (ix2 0 (i 0)))) (j 0) (j 2) :=
  (dat1 V c).arrAt_eq_of_cover 4 (G V c) (flushed_eq V c) fun i => by
    have hN : cfg1.N = 32 := N_1
    have hi0 : (i 0).val < 16 := (i 0).isLt
    have hi1 : (i 1).val < 1 := (i 1).isLt
    have hi2 : (i 2).val < 32 := (i 2).isLt
    obtain ⟨t, ht⟩ : ∃ t : Fin cfg1.N, t.val = 2 * (i 0).val + 1 := ⟨⟨2 * (i 0).val + 1, by omega⟩, rfl⟩
    obtain ⟨-, -, -, -, -, -, -, -, -, -, e0, e1, e2⟩ := idx_facts t
    refine ⟨t, (flush1_4 t).mpr (by omega), ?_⟩
    rw [mem_blk]
    intro a
    match a with
    | ⟨0, _⟩ => show win1_4.index t (0 : Fin 3) * 1 ≤ (i 0).val ∧ (i 0).val < win1_4.index t (0 : Fin 3) * 1 + 1; omega
    | ⟨1, _⟩ => show win1_4.index t (1 : Fin 3) * 1 ≤ (i 1).val ∧ (i 1).val < win1_4.index t (1 : Fin 3) * 1 + 1; omega
    | ⟨2, _⟩ => show win1_4.index t (2 : Fin 3) * 32 ≤ (i 2).val ∧ (i 2).val < win1_4.index t (2 : Fin 3) * 32 + 32; omega

end Cert.KernelIdeal.PoolValue

end
-- ==== Proof.KernelValue.lean ====
/-
  The idealized kernel's result as a function of its arguments.

  Reading the final contents back through the program: the result is the perceptron tail of the flattened pooled array;
  the pooled array is what the second kernel leaves — the row sums of the second layer over the first layer's output, the
  adjacency, the second weight and the second bias row as that kernel finds them; the first layer's output is what the first
  kernel leaves — the first layer over the features, the adjacency, the first weight and the first bias row as that kernel
  finds them; and everything a kernel finds besides the first layer's output is a launched argument, a bias through its
  reshape to a row. Composed, the result is the tail of the specification's pooled array of the six graph arguments.
-/
import proofs.«177277_j5901285064811_2_alg».proof.Proof.KernelRun
import proofs.«177277_j5901285064811_2_alg».proof.Proof.KernelTail
import proofs.«177277_j5901285064811_2_alg».proof.Proof.Layer1Value
import proofs.«177277_j5901285064811_2_alg».proof.Proof.PoolValue
import Idealize.ShloMosaic.Lib.ValueLayout

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem

/-- A vector reshaped to a row, read at the row's one line. -/
theorem row_apply (b : FVec Ideal S32 .f32) (k : Fin 32) :
    shapeCast S1x32 b shapeCasts_S32_S1x32 (ix2 (0 : Fin 1) k) = b (ix1 k) :=
  shapeCast_apply b _ _ _ (by rw [Shape.rowMajor_val_one, Shape.rowMajor_val_two]; show k.val = 0 * 32 + k.val; omega)

theorem row_fun (b : FVec Ideal S32 .f32) :
    (fun i : S32.Idx => shapeCast S1x32 b shapeCasts_S32_S1x32 (ix2 (0 : Fin 1) (i 0))) = b :=
  funext fun i => (row_apply b (i 0)).trans (congrArg b (eq_ix1 i).symm)

/-- The pooled array `[16, 1, 32]` flattened to `[16, 32]`, read at an entry. -/
theorem flatten_apply (X : FVec Ideal S16x1x32 .f32) (b : Fin 16) (k : Fin 32) :
    shapeCast S16x32 X shapeCasts_S16x1x32_S16x32 (ix2 b k) = X (ix3 b (0 : Fin 1) k) :=
  shapeCast_apply X _ _ _ (by rw [Shape.rowMajor_val_three, Shape.rowMajor_val_two]; show (b.val * 1 + 0) * 32 + k.val = b.val * 32 + k.val; omega)

variable (m : (ℓ : Loc nD τ sig) → Buf (Elt Ideal) ℓ) (ρ : Dev nD → PrngReg)

/-- The first layer's output as the second kernel finds it is the specification's first layer of the launched arguments. -/
theorem first_layer (c : Dev nD) :
    (V3 m ρ c main_v1 : S16x2048x32.Idx → EReal)
      = Cert.GcnSpec.layer (m ((c : Thread nD τ).loc main_arg0)) (m ((c : Thread nD τ).loc main_arg1))
          (m ((c : Thread nD τ).loc main_arg2)) (m ((c : Thread nD τ).loc main_arg3)) := by
  refine (KTail.W3_main_v1 m ρ c).trans ((Layer1.final0 (V1 m ρ) c).trans ?_)
  unfold Layer1.H1
  have a0 : (V1 m ρ c main_arg0 : S16x2048x128.Idx → EReal) = m ((c : Thread nD τ).loc main_arg0) := KTail.W1_main_arg0 m ρ c
  have a1 : (V1 m ρ c main_arg1 : S16x2048x2048.Idx → EReal) = m ((c : Thread nD τ).loc main_arg1) := KTail.W1_main_arg1 m ρ c
  have a2 : (V1 m ρ c main_arg2 : S128x32.Idx → EReal) = m ((c : Thread nD τ).loc main_arg2) := KTail.W1_main_arg2 m ρ c
  have a3 : (fun i : S32.Idx => (V1 m ρ c main_v0 : S1x32.Idx → EReal) (ix2 (0 : Fin 1) (i 0))) = m ((c : Thread nD τ).loc main_arg3) := by
    rw [show (V1 m ρ c main_v0 : S1x32.Idx → EReal) = _ from KTail.W1_main_v0 m ρ c]
    exact row_fun _
  rw [a0, a1, a2, a3]

/-- The result buffer at the end of the run, as a function of the ten launched arguments. -/
theorem result_eq (c : Dev nD) :
    W7 m ρ c (Proc.devRef .tc main_v19)
      = KTail.tail (F := Ideal) (Cert.GcnSpec.pooled (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5)))
          (m ((c : Thread nD τ).loc main_arg6)) (m ((c : Thread nD τ).loc main_arg7))
          (m ((c : Thread nD τ).loc main_arg8)) (m ((c : Thread nD τ).loc main_arg9)) := by
  rw [KTail.W7_result, KTail.W4_main_arg6, KTail.W4_main_arg7, KTail.W4_main_arg8, KTail.W4_main_arg9]
  refine congrArg (fun p => KTail.tail (F := Ideal) p _ _ _ _) ?_
  funext j
  obtain ⟨b, k, rfl⟩ : ∃ (b : Fin 16) (k : Fin 32), j = ix2 b k := ⟨j 0, j 1, eq_ix2 j⟩
  refine (flatten_apply _ b k).trans ?_
  have h4 : W4 m ρ c (Proc.devRef .tc main_v3) = _ := (W4_arr m ρ c 4).trans (PoolValue.final1 (V3 m ρ) c)
  refine (congrFun h4 (ix3 b (0 : Fin 1) k)).trans ?_
  have e2 : (V3 m ρ c main_arg1 : S16x2048x2048.Idx → EReal) = m ((c : Thread nD τ).loc main_arg1) := KTail.W3_main_arg1 m ρ c
  have e3 : (V3 m ρ c main_arg4 : S32x32.Idx → EReal) = m ((c : Thread nD τ).loc main_arg4) := KTail.W3_main_arg4 m ρ c
  have e4 : (fun i : S32.Idx => (V3 m ρ c main_v2 : S1x32.Idx → EReal) (ix2 (0 : Fin 1) (i 0))) = m ((c : Thread nD τ).loc main_arg5) := by
    rw [show (V3 m ρ c main_v2 : S1x32.Idx → EReal) = _ from KTail.W3_main_v2 m ρ c]
    exact row_fun _
  show Cert.GcnSpec.pool (Cert.GcnSpec.layer (V3 m ρ c main_v1) (V3 m ρ c main_arg1) (V3 m ρ c main_arg4)
      (fun i => V3 m ρ c main_v2 (ix2 (0 : Fin 1) (i 0)))) b k = _
  rw [first_layer m ρ c, e2, e3, e4]
  rfl

/-- Every weakly fair execution of the idealized kernel's program terminates without a fault, with the result at the tail
    of the specification's pooled array and the ten arguments as launched. -/
theorem run :
    θ_run defs (onTc (τ := τ) (main (F := Ideal))) ⟨m, fun _ => 0, ρ⟩ (fun r => ∀ c : Dev nD,
      r.2.mem ((c.tc : Thread nD τ).loc main_v19)
        = KTail.tail (F := Ideal) (Cert.GcnSpec.pooled (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5)))
          (m ((c.tc : Thread nD τ).loc main_arg6)) (m ((c.tc : Thread nD τ).loc main_arg7))
          (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_eq m ρ c), (h c).2⟩) (KRun.run_vals (F := Ideal) m ρ)

end Cert.KernelIdeal.KValue

end
-- ==== Proof.RefRun.lean ====
/-
  The reference network's run, read back.

  The reference program is a straight line of sixty-one host operations once its three calls (the two activations,
  each calling two selections, and the rectifier) are unfolded at their call sites: two graph-convolution layers
  (transform, aggregate, add the bias, activate), the sum over the nodes, and a two-layer perceptron with a logistic
  output. Every weakly fair execution terminates with the result buffer at the operations' composed term of the ten
  arguments' launch contents (`refTerm`), the arguments unchanged.

  The composed term is cut where the mathematics is: `eluT` (the activation as the program spells it), `layerT`
  (one layer), `pooledT` (both layers and the sum over the nodes) and `tail` (everything after that sum).
-/
import proofs.«177277_j5901285064811_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The composed term -/

/-- The activation on a `[16, 2048, 32]` array, as the program spells it: where `z > 0` it is `z`, elsewhere one times
    `expm1` of `z` with the positive entries replaced by zero. -/
def eluT (z : FVec F S16x2048x32 .f32) : FVec F S16x2048x32 .f32 :=
  select (cmpf .ogt z (broadcastInDim S16x2048x32 ![] bcast_S_S16x2048x32 (constant S_ .f32 0x00000000#32))) z
    (mulf (broadcastInDim S16x2048x32 ![] bcast_S_S16x2048x32 (constant S_ .f32 0x3F800000#32))
      (Host.expm1
        (select (cmpf .ogt z (broadcastInDim S16x2048x32 ![] bcast_S_S16x2048x32 (constant S_ .f32 0x00000000#32)))
          (broadcastInDim S16x2048x32 ![] bcast_S_S16x2048x32 (id (constant S_ .f32 0x00000000#32))) z)))

/-- One layer: the features times the weight, the adjacency times that (batched over the graphs), plus the bias
    broadcast over graphs and nodes, activated. `dW` is the first product's dimension record (it depends on the
    feature count). -/
def layerT {sh sw : Shape} (dW : DotDims sh sw S16x2048x32) (h : FVec F sh .f32) (a : FVec F S16x2048x2048 .f32)
    (w : FVec F sw .f32) (bias : FVec F S32 .f32) : FVec F S16x2048x32 .f32 :=
  eluT (addf (Host.dotGeneral dot_S16x2048x2048_S16x2048x32_S16x2048x32_2_1_1_2_0_0 none a (Host.dotGeneral dW none h w))
    (broadcastInDim S16x2048x32 ![0, 1, 2] bcast_S1x1x32_S16x2048x32_0_1_2 (broadcastInDim S1x1x32 ![2] bcast_S32_S1x1x32_2 bias)))

/-- Both layers, then the sum over the nodes from the zero word. -/
def pooledT (x : FVec F S16x2048x128 .f32) (a : FVec F S16x2048x2048 .f32) (w1 : FVec F S128x32 .f32) (b1 : FVec F S32 .f32)
    (w2 : FVec F S32x32 .f32) (b2 : FVec F S32 .f32) : FVec F S16x32 .f32 :=
  Host.reduceAdd
    (layerT dot_S16x2048x32_S32x32_S16x2048x32_2_0_01_1_n_n
      (layerT dot_S16x2048x128_S128x32_S16x2048x32_2_0_01_1_n_n x a w1 b1) a w2 b2)
    (constant S_ .f32 0x00000000#32) reducesTo_S16x2048x32_S16x32_d1 h_S_

/-- Everything after the sum over the nodes, in the printed order: the first dense layer (product, bias broadcast
    twice, sum), the rectifier (maximum with the zero splat), the second dense layer, and the logistic function
    spelled `1 / (1 + exp (-t))`. -/
def tail (p : FVec F S16x32 .f32) (wf1 : FVec F S32x512 .f32) (bf1 : FVec F S512 .f32) (wf2 : FVec F S512x1 .f32)
    (bf2 : FVec F S1 .f32) : FVec F S16x1 .f32 :=
  Host.divf (broadcastInDim S16x1 ![] bcast_S_S16x1 (constant S_ .f32 0x3F800000#32))
    (addf (broadcastInDim S16x1 ![] bcast_S_S16x1 (constant S_ .f32 0x3F800000#32))
      (Host.exp (Host.negf
        (addf
          (Host.dotGeneral dot_S16x512_S512x1_S16x1_1_0_0_1_n_n none
            (maximumf
              (addf (Host.dotGeneral dot_S16x32_S32x512_S16x512_1_0_0_1_n_n none p wf1)
                (broadcastInDim S16x512 ![0, 1] bcast_S1x512_S16x512_0_1 (broadcastInDim S1x512 ![1] bcast_S512_S1x512_1 bf1)))
              (broadcastInDim S16x512 ![] bcast_S_S16x512 (constant S_ .f32 0x00000000#32)))
            wf2)
          (broadcastInDim S16x1 ![0, 1] bcast_S1x1_S16x1_0_1 (broadcastInDim S1x1 ![1] bcast_S1_S1x1_1 bf2))))))

/-- The reference's result as a function of its ten arguments. -/
def refTerm (x : FVec F S16x2048x128 .f32) (a : FVec F S16x2048x2048 .f32) (w1 : FVec F S128x32 .f32) (b1 : FVec F S32 .f32)
    (w2 : FVec F S32x32 .f32) (b2 : FVec F S32 .f32) (wf1 : FVec F S32x512 .f32) (bf1 : FVec F S512 .f32)
    (wf2 : FVec F S512x1 .f32) (bf2 : FVec F S1 .f32) : FVec F S16x1 .f32 :=
  tail (pooledT x a w1 b1 w2 b2) wf1 bf1 wf2 bf2

/-! ## The program as a list of operations -/

/-- @main's sixty-one operations in order, the calls unfolded: each activation is fifteen (the zero, its broadcast and
    the comparison, twice; a third zero, converted to its own type, broadcast, and the inner selection; `expm1`; the
    one, its broadcast and the product; the outer selection), the rectifier three. -/
abbrev ops : List (HloOp τ sig (Elt F)) :=
  [
    StableHlo.binary main_arg0 main_arg2 main_v0 ((fun l r => Host.dotGeneral dot_S16x2048x128_S128x32_S16x2048x32_2_0_01_1_n_n none l r) : (⟨S16x2048x128, .f32⟩ : BufTy).Contents (Elt F) → (⟨S128x32, .f32⟩ : BufTy).Contents (Elt F) → (⟨S16x2048x32, .f32⟩ : BufTy).Contents (Elt F)),
    StableHlo.binary main_arg1 main_v0 main_v1 ((fun l r => Host.dotGeneral dot_S16x2048x2048_S16x2048x32_S16x2048x32_2_1_1_2_0_0 none l r) : (⟨S16x2048x2048, .f32⟩ : BufTy).Contents (Elt F) → (⟨S16x2048x32, .f32⟩ : BufTy).Contents (Elt F) → (⟨S16x2048x32, .f32⟩ : BufTy).Contents (Elt F)),
    StableHlo.unary main_arg3 main_v2 (broadcastInDim S1x1x32 ![2] bcast_S32_S1x1x32_2 : (⟨S32, .f32⟩ : BufTy).Contents (Elt F) → (⟨S1x1x32, .f32⟩ : BufTy).Contents (Elt F)),
    StableHlo.unary main_v2 main_v3 (broadcastInDim S16x2048x32 ![0, 1, 2] bcast_S1x1x32_S16x2048x32_0_1_2 : (⟨S1x1x32, .f32⟩ : BufTy).Contents (Elt F) → (⟨S16x2048x32, .f32⟩ : BufTy).Contents (Elt F)),
    StableHlo.binary main_v1 main_v3 main_v4 (addf : (⟨S16x2048x32, .f32⟩ : BufTy).Contents (Elt F) → (⟨S16x2048x32, .f32⟩ : BufTy).Contents (Elt F) → (⟨S16x2048x32, .f32⟩ : BufTy).Contents (Elt F)),
    TRef.nullary main_call0.cst (constant S_ .f32 0x00000000#32),
    TRef.unary main_call0.cst main_call0.v0 (broadcastInDim S16x2048x32 ![] bcast_S_S16x2048x32),
    TRef.binary (.of main_v4) main_call0.v0 main_call0.v1 (cmpf .ogt),
    TRef.nullary main_call0.cst_0 (constant S_ .f32 0x00000000#32),
    TRef.unary main_call0.cst_0 main_call0.v2 (broadcastInDim S16x2048x32 ![] bcast_S_S16x2048x32),
    TRef.binary (.of main_v4) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S16x2048x32 ![] bcast_S_S16x2048x32),
    TRef.ternary main_call0.v3 main_call0.call0.v1 (.of main_v4) main_call0.call0.v2 select,
    TRef.unary main_call0.call0.v2 main_call0.v5 Host.expm1,
    TRef.nullary main_call0.cst_2 (constant S_ .f32 0x3F800000#32),
    TRef.unary main_call0.cst_2 main_call0.v6 (broadcastInDim S16x2048x32 ![] bcast_S_S16x2048x32),
    TRef.binary main_call0.v6 main_call0.v5 main_call0.v7 mulf,
    TRef.ternary main_call0.v1 (.of main_v4) main_call0.v7 main_call0.call1.v0 select,
    StableHlo.binary main_v5 main_arg4 main_v6 ((fun l r => Host.dotGeneral dot_S16x2048x32_S32x32_S16x2048x32_2_0_01_1_n_n none l r) : (⟨S16x2048x32, .f32⟩ : BufTy).Contents (Elt F) → (⟨S32x32, .f32⟩ : BufTy).Contents (Elt F) → (⟨S16x2048x32, .f32⟩ : BufTy).Contents (Elt F)),
    StableHlo.binary main_arg1 main_v6 main_v7 ((fun l r => Host.dotGeneral dot_S16x2048x2048_S16x2048x32_S16x2048x32_2_1_1_2_0_0 none l r) : (⟨S16x2048x2048, .f32⟩ : BufTy).Contents (Elt F) → (⟨S16x2048x32, .f32⟩ : BufTy).Contents (Elt F) → (⟨S16x2048x32, .f32⟩ : BufTy).Contents (Elt F)),
    StableHlo.unary main_arg5 main_v8 (broadcastInDim S1x1x32 ![2] bcast_S32_S1x1x32_2 : (⟨S32, .f32⟩ : BufTy).Contents (Elt F) → (⟨S1x1x32, .f32⟩ : BufTy).Contents (Elt F)),
    StableHlo.unary main_v8 main_v9 (broadcastInDim S16x2048x32 ![0, 1, 2] bcast_S1x1x32_S16x2048x32_0_1_2 : (⟨S1x1x32, .f32⟩ : BufTy).Contents (Elt F) → (⟨S16x2048x32, .f32⟩ : BufTy).Contents (Elt F)),
    StableHlo.binary main_v7 main_v9 main_v10 (addf : (⟨S16x2048x32, .f32⟩ : BufTy).Contents (Elt F) → (⟨S16x2048x32, .f32⟩ : BufTy).Contents (Elt F) → (⟨S16x2048x32, .f32⟩ : BufTy).Contents (Elt F)),
    TRef.nullary main_call1.cst (constant S_ .f32 0x00000000#32),
    TRef.unary main_call1.cst main_call1.v0 (broadcastInDim S16x2048x32 ![] bcast_S_S16x2048x32),
    TRef.binary (.of main_v10) main_call1.v0 main_call1.v1 (cmpf .ogt),
    TRef.nullary main_call1.cst_0 (constant S_ .f32 0x00000000#32),
    TRef.unary main_call1.cst_0 main_call1.v2 (broadcastInDim S16x2048x32 ![] bcast_S_S16x2048x32),
    TRef.binary (.of main_v10) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S16x2048x32 ![] bcast_S_S16x2048x32),
    TRef.ternary main_call1.v3 main_call1.call0.v1 (.of main_v10) main_call1.call0.v2 select,
    TRef.unary main_call1.call0.v2 main_call1.v5 Host.expm1,
    TRef.nullary main_call1.cst_2 (constant S_ .f32 0x3F800000#32),
    TRef.unary main_call1.cst_2 main_call1.v6 (broadcastInDim S16x2048x32 ![] bcast_S_S16x2048x32),
    TRef.binary main_call1.v6 main_call1.v5 main_call1.v7 mulf,
    TRef.ternary main_call1.v1 (.of main_v10) main_call1.v7 main_call1.call1.v0 select,
    StableHlo.nullary main_cst (constant S_ .f32 0x00000000#32),
    StableHlo.binary main_v11 main_cst main_v12 ((fun x v => Host.reduceAdd x v reducesTo_S16x2048x32_S16x32_d1 h_S_) : (⟨S16x2048x32, .f32⟩ : BufTy).Contents (Elt F) → (⟨S_, .f32⟩ : BufTy).Contents (Elt F) → (⟨S16x32, .f32⟩ : BufTy).Contents (Elt F)),
    StableHlo.binary main_v12 main_arg6 main_v13 ((fun l r => Host.dotGeneral dot_S16x32_S32x512_S16x512_1_0_0_1_n_n none l r) : (⟨S16x32, .f32⟩ : BufTy).Contents (Elt F) → (⟨S32x512, .f32⟩ : BufTy).Contents (Elt F) → (⟨S16x512, .f32⟩ : BufTy).Contents (Elt F)),
    StableHlo.unary main_arg7 main_v14 (broadcastInDim S1x512 ![1] bcast_S512_S1x512_1 : (⟨S512, .f32⟩ : BufTy).Contents (Elt F) → (⟨S1x512, .f32⟩ : BufTy).Contents (Elt F)),
    StableHlo.unary main_v14 main_v15 (broadcastInDim S16x512 ![0, 1] bcast_S1x512_S16x512_0_1 : (⟨S1x512, .f32⟩ : BufTy).Contents (Elt F) → (⟨S16x512, .f32⟩ : BufTy).Contents (Elt F)),
    StableHlo.binary main_v13 main_v15 main_v16 (addf : (⟨S16x512, .f32⟩ : BufTy).Contents (Elt F) → (⟨S16x512, .f32⟩ : BufTy).Contents (Elt F) → (⟨S16x512, .f32⟩ : BufTy).Contents (Elt F)),
    TRef.nullary main_call2.cst (constant S_ .f32 0x00000000#32),
    TRef.unary main_call2.cst main_call2.v0 (broadcastInDim S16x512 ![] bcast_S_S16x512),
    TRef.binary (.of main_v16) main_call2.v0 main_call2.v1 maximumf,
    StableHlo.binary main_v17 main_arg8 main_v18 ((fun l r => Host.dotGeneral dot_S16x512_S512x1_S16x1_1_0_0_1_n_n none l r) : (⟨S16x512, .f32⟩ : BufTy).Contents (Elt F) → (⟨S512x1, .f32⟩ : BufTy).Contents (Elt F) → (⟨S16x1, .f32⟩ : BufTy).Contents (Elt F)),
    StableHlo.unary main_arg9 main_v19 (broadcastInDim S1x1 ![1] bcast_S1_S1x1_1 : (⟨S1, .f32⟩ : BufTy).Contents (Elt F) → (⟨S1x1, .f32⟩ : BufTy).Contents (Elt F)),
    StableHlo.unary main_v19 main_v20 (broadcastInDim S16x1 ![0, 1] bcast_S1x1_S16x1_0_1 : (⟨S1x1, .f32⟩ : BufTy).Contents (Elt F) → (⟨S16x1, .f32⟩ : BufTy).Contents (Elt F)),
    StableHlo.binary main_v18 main_v20 main_v21 (addf : (⟨S16x1, .f32⟩ : BufTy).Contents (Elt F) → (⟨S16x1, .f32⟩ : BufTy).Contents (Elt F) → (⟨S16x1, .f32⟩ : BufTy).Contents (Elt F)),
    StableHlo.unary main_v21 main_v22 (Host.negf : (⟨S16x1, .f32⟩ : BufTy).Contents (Elt F) → (⟨S16x1, .f32⟩ : BufTy).Contents (Elt F)),
    StableHlo.unary main_v22 main_v23 (Host.exp : (⟨S16x1, .f32⟩ : BufTy).Contents (Elt F) → (⟨S16x1, .f32⟩ : BufTy).Contents (Elt F)),
    StableHlo.nullary main_cst_0 (constant S_ .f32 0x3F800000#32),
    StableHlo.unary main_cst_0 main_v24 (broadcastInDim S16x1 ![] bcast_S_S16x1 : (⟨S_, .f32⟩ : BufTy).Contents (Elt F) → (⟨S16x1, .f32⟩ : BufTy).Contents (Elt F)),
    StableHlo.binary main_v24 main_v23 main_v25 (addf : (⟨S16x1, .f32⟩ : BufTy).Contents (Elt F) → (⟨S16x1, .f32⟩ : BufTy).Contents (Elt F) → (⟨S16x1, .f32⟩ : BufTy).Contents (Elt F)),
    StableHlo.nullary main_cst_1 (constant S_ .f32 0x3F800000#32),
    StableHlo.unary main_cst_1 main_v26 (broadcastInDim S16x1 ![] bcast_S_S16x1 : (⟨S_, .f32⟩ : BufTy).Contents (Elt F) → (⟨S16x1, .f32⟩ : BufTy).Contents (Elt F)),
    StableHlo.binary main_v26 main_v25 main_v27 (Host.divf : (⟨S16x1, .f32⟩ : BufTy).Contents (Elt F) → (⟨S16x1, .f32⟩ : BufTy).Contents (Elt F) → (⟨S16x1, .f32⟩ : BufTy).Contents (Elt F)) ]

-- sixty-one binds re-associated: the rewrite under the chain recurses once per statement
set_option maxRecDepth 2048 in
/-- @main is that straight line: the functions' bodies unfolded at their calls, both sides are one chain of steps once
    sequencing is reassociated. -/
theorem main_eq (c : Dev nD) : main (F := F) c = seq ops := by
  simp only [main, fn_elu.body, fn_where.body, fn_where_0.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    binary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub .., binary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub .., nullary_bufs_sub .., binary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., unary_bufs_sub ..,
    unary_bufs_sub .., nullary_bufs_sub .., unary_bufs_sub .., binary_bufs_sub .., nullary_bufs_sub .., unary_bufs_sub ..,
    binary_bufs_sub ..⟩

/-! ## What the buffers hold after the line -/

set_option maxRecDepth 8192 in
/-- The fold at the result buffer is `refTerm` of the arguments' contents: each operation's result at its own buffer
    is its function of its operands' contents, at any other buffer what was there; what is left is the composed
    term, the typed references' transports the identity at these literal references. -/
theorem out_eq (V : Valuation τ sig (Elt F)) :
    after ops V (main_v27 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

theorem arg9_eq (V : Valuation τ sig (Elt F)) :
    after ops V (main_arg9 : DevRef τ sig) = V (main_arg9 : DevRef τ sig) := by
  after_results_simp

/-! ## The run -/

/-- On every device, for any float values, from any memory with zero counters: every weakly fair execution of @main
    terminates with the result at `refTerm` of the arguments' launch contents and the ten arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v27)
        = refTerm (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c main_v27).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_seq scopedRefs_eq scopedSems_eq defs main (fun _ => ops) main_eq (fun _ => ops_sub) m ρ)

end Cert.ReferenceIdeal.RefValue

end
-- ==== Proof.RefRead.lean ====
/-
  The reference's term, read entry by entry, is the network's specification.

  The sum over the nodes of the second of two stacked layers (`pooledT`, the composed host operations) is
  `Cert.GcnSpec.pooled`: the activation at an entry is `elu` of the entry; a layer at `(b, n, c)` is `elu` of the
  adjacency row `a[b, n, ·]` against the transformed features `∑ f, h[b, ·, f] · w[f, c]`, plus `bias[c]`; the
  host's sum over the node axis from the zero word is the plain sum over the nodes. Everything after that sum
  (`tail`) is common to both sides and is not opened.
-/
import proofs.«177277_j5901285064811_2_alg».proof.Proof.RefRun
import proofs.«177277_j5901285064811_2_alg».proof.Proof.Spec
import Idealize.ShloMosaic.Lib.IdealHost
import Idealize.ShloMosaic.Lib.StackMember
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx

/-! ## The activation at an entry -/

/-- The host's `expm1` of an array, at an entry. -/
theorem hostExpm1_apply {s : Shape} {φ : FTy} (x : FVec Ideal s φ) (i : s.Idx) :
    Host.expm1 x i = Ideal.exp (x i) - 1 := rfl

/-- The activation as the program spells it, at an entry, is `elu` of the entry. -/
theorem eluT_apply (z : FVec Ideal S16x2048x32 .f32) (i : S16x2048x32.Idx) :
    eluT z i = Cert.GcnSpec.elu (z i) := by
  unfold eluT
  show Scalar.select (Ideal.cmp .ogt (z i) (Ideal.ofBits .f32 0x00000000#32)) (z i)
      (Ideal.ofBits .f32 0x3F800000#32
        * (Ideal.exp (Scalar.select (Ideal.cmp .ogt (z i) (Ideal.ofBits .f32 0x00000000#32))
            (Ideal.ofBits .f32 0x00000000#32) (z i)) - 1)) = _
  rw [Ideal.ofBits_zero_f32, Ideal.ofBits_one_f32]
  exact Cert.GcnSpec.elu_of_guard (z i)

/-! ## The two products at an entry -/

/-- The transform: `[16, 2048, K] × [K, 32]`, the last axis against the first, at `(b, m, c)` is the sum over the
    features. -/
theorem dotFeature_apply {K : Nat}
    (wf : DotDims.WF ⟨3, ![16, 2048, K]⟩ ⟨2, ![K, 32]⟩ ⟨3, ![16, 2048, 32]⟩ [2] [0] [0, 1] [1] [] [])
    (prec : Option ContractPrecision) (A : FVec Ideal ⟨3, ![16, 2048, K]⟩ .f32) (B : FVec Ideal ⟨2, ![K, 32]⟩ .f32)
    (b : Fin 16) (m : Fin 2048) (c : Fin 32) :
    Host.dotGeneral (⟨[2], [0], [0, 1], [1], [], [], wf⟩ : DotDims _ _ _) prec A B (ix3 b m c)
      = ∑ f : Fin K, A (ix3 b m f) * B (ix2 f c) := by
  show FloatOps.dotGeneral _ prec _ A B (ix3 b m c) = _
  rw [Ideal.dotGeneral_apply,
    ← Equiv.sum_comp (contrEquiv1 (⟨[2], [0], [0, 1], [1], [], [], wf⟩ : DotDims _ _ _) K rfl rfl).symm]
  refine Finset.sum_congr rfl fun f _ => ?_
  have cv := contrEquiv1_symm_val
    (⟨[2], [0], [0, 1], [1], [], [], wf⟩ : DotDims ⟨3, ![16, 2048, K]⟩ ⟨2, ![K, 32]⟩ ⟨3, ![16, 2048, 32]⟩) K rfl rfl f
  have el : (⟨[2], [0], [0, 1], [1], [], [], wf⟩ : DotDims ⟨3, ![16, 2048, K]⟩ ⟨2, ![K, 32]⟩ ⟨3, ![16, 2048, 32]⟩).lhsIdx
      (ix3 b m c) ((contrEquiv1 _ K rfl rfl).symm f) = ix3 b m f := by
    funext ax; apply Fin.ext
    match ax with
    | ⟨0, _⟩ => simp [DotDims.lhsIdx]; rfl
    | ⟨1, _⟩ => simp [DotDims.lhsIdx]; rfl
    | ⟨2, _⟩ => simp [DotDims.lhsIdx]; exact cv
  have er : (⟨[2], [0], [0, 1], [1], [], [], wf⟩ : DotDims ⟨3, ![16, 2048, K]⟩ ⟨2, ![K, 32]⟩ ⟨3, ![16, 2048, 32]⟩).rhsIdx
      (ix3 b m c) ((contrEquiv1 _ K rfl rfl).symm f) = ix2 f c := by
    funext ax; apply Fin.ext
    match ax with
    | ⟨0, _⟩ => simp [DotDims.rhsIdx]; exact cv
    | ⟨1, _⟩ => simp [DotDims.rhsIdx]; rfl
  rw [el, er]

/-! ## A layer at an entry -/

/-- The bias broadcast over graphs and nodes, at `(b, n, c)`, is `bias[c]`. -/
theorem biasBcast_apply (bias : FVec Ideal S32 .f32) (b : Fin 16) (n : Fin 2048) (c : Fin 32) :
    broadcastInDim S16x2048x32 ![0, 1, 2] bcast_S1x1x32_S16x2048x32_0_1_2
        (broadcastInDim S1x1x32 ![2] bcast_S32_S1x1x32_2 bias) (ix3 b n c) = bias (ix1 c) := by
  refine (broadcastInDim_apply _ _ _ (ix3 b n c) (ix3 (0 : Fin 1) (0 : Fin 1) c) (fun ax => ?_)).trans ?_
  · match ax with
    | ⟨0, _⟩ => rfl
    | ⟨1, _⟩ => rfl
    | ⟨2, _⟩ => rfl
  · refine broadcastInDim_apply _ _ _ (ix3 (0 : Fin 1) (0 : Fin 1) c) (ix1 c) (fun ax => ?_)
    match ax with
    | ⟨0, _⟩ => rfl

/-- One layer of the program at `(b, n, c)` is the specification's layer there. -/
theorem layerT_apply {K : Nat}
    (wf : DotDims.WF ⟨3, ![16, 2048, K]⟩ ⟨2, ![K, 32]⟩ ⟨3, ![16, 2048, 32]⟩ [2] [0] [0, 1] [1] [] [])
    (h : FVec Ideal ⟨3, ![16, 2048, K]⟩ .f32) (a : FVec Ideal S16x2048x2048 .f32) (w : FVec Ideal ⟨2, ![K, 32]⟩ .f32)
    (bias : FVec Ideal S32 .f32) (b : Fin 16) (n : Fin 2048) (c : Fin 32) :
    layerT (⟨[2], [0], [0, 1], [1], [], [], wf⟩ : DotDims _ _ _) h a w bias (ix3 b n c)
      = Cert.GcnSpec.layerAt h a w bias b n c := by
  unfold layerT
  rw [eluT_apply]
  unfold Cert.GcnSpec.layerAt Cert.GcnSpec.preact Cert.GcnSpec.transformed
  refine congrArg Cert.GcnSpec.elu ?_
  rw [addf_apply, biasBcast_apply]
  refine congrArg (· + bias (ix1 c)) ?_
  refine (StackMember.dotGeneral_stack_apply _ none a _ b n c).trans ?_
  refine Finset.sum_congr rfl fun m _ => ?_
  rw [dotFeature_apply]

/-- The first layer as an array. -/
theorem layerT_eq_first (x : FVec Ideal S16x2048x128 .f32) (a : FVec Ideal S16x2048x2048 .f32) (w : FVec Ideal S128x32 .f32)
    (bias : FVec Ideal S32 .f32) :
    layerT dot_S16x2048x128_S128x32_S16x2048x32_2_0_01_1_n_n x a w bias = Cert.GcnSpec.layer x a w bias := by
  funext i
  obtain ⟨b, n, c, rfl⟩ : ∃ (b : Fin 16) (n : Fin 2048) (c : Fin 32), i = ix3 b n c := ⟨i 0, i 1, i 2, eq_ix3 i⟩
  exact layerT_apply _ x a w bias b n c

/-- The second layer as an array. -/
theorem layerT_eq_second (h : FVec Ideal S16x2048x32 .f32) (a : FVec Ideal S16x2048x2048 .f32) (w : FVec Ideal S32x32 .f32)
    (bias : FVec Ideal S32 .f32) :
    layerT dot_S16x2048x32_S32x32_S16x2048x32_2_0_01_1_n_n h a w bias = Cert.GcnSpec.layer h a w bias := by
  funext i
  obtain ⟨b, n, c, rfl⟩ : ∃ (b : Fin 16) (n : Fin 2048) (c : Fin 32), i = ix3 b n c := ⟨i 0, i 1, i 2, eq_ix3 i⟩
  exact layerT_apply _ h a w bias b n c

/-! ## The sum over the nodes, and the whole term -/

/-- Both layers summed over the nodes by the host, from the zero word, are the specification's pooled array. -/
theorem pooledT_eq (x : FVec Ideal S16x2048x128 .f32) (a : FVec Ideal S16x2048x2048 .f32) (w1 : FVec Ideal S128x32 .f32)
    (b1 : FVec Ideal S32 .f32) (w2 : FVec Ideal S32x32 .f32) (b2 : FVec Ideal S32 .f32) :
    pooledT x a w1 b1 w2 b2 = Cert.GcnSpec.pooled x a w1 b1 w2 b2 := by
  unfold pooledT
  rw [layerT_eq_first, layerT_eq_second]
  funext j
  obtain ⟨b, c, rfl⟩ : ∃ (b : Fin 16) (c : Fin 32), j = ix2 b c := ⟨j 0, j 1, eq_ix2 j⟩
  rw [hostReduceAdd_apply, Ideal.hostReduceAdd_single reducesTo_S16x2048x32_S16x32_d1 (by decide), constant_apply,
    Ideal.ofBits_zero_f32, zero_add]
  show _ = ∑ n : Fin 2048, Cert.GcnSpec.layer (Cert.GcnSpec.layer x a w1 b1) a w2 b2 (ix3 b n c)
  refine Finset.sum_congr rfl fun n _ => ?_
  exact congrArg _ (funext fun ax => Fin.ext (by
    match ax with
    | ⟨0, _⟩ => rfl
    | ⟨1, _⟩ => rfl
    | ⟨2, _⟩ => rfl))

/-- The reference's result is the common tail applied to the specification's pooled array. -/
theorem refTerm_eq (x : FVec Ideal S16x2048x128 .f32) (a : FVec Ideal S16x2048x2048 .f32) (w1 : FVec Ideal S128x32 .f32)
    (b1 : FVec Ideal S32 .f32) (w2 : FVec Ideal S32x32 .f32) (b2 : FVec Ideal S32 .f32) (wf1 : FVec Ideal S32x512 .f32)
    (bf1 : FVec Ideal S512 .f32) (wf2 : FVec Ideal S512x1 .f32) (bf2 : FVec Ideal S1 .f32) :
    refTerm x a w1 b1 w2 b2 wf1 bf1 wf2 bf2 = tail (Cert.GcnSpec.pooled x a w1 b1 w2 b2) wf1 bf1 wf2 bf2 := by
  unfold refTerm
  rw [pooledT_eq]

end Cert.ReferenceIdeal.RefValue

end
-- ==== Proof.lean ====
/-
  A two-layer graph convolution network with a sum pool and a perceptron head, as two fused kernels plus a host tail,
  against the same network written with whole-array operations: equal results on the extended reals.

  One layer is `elu (a · (h · w) + bias)`: the node features are transformed by the weight, aggregated along the dense
  adjacency, shifted by the bias and passed through the exponential linear unit. The first kernel computes the first layer
  tile by tile (1024 adjacency rows at a time, recomputing the small transform per tile); the second computes the second
  layer tile by tile, sums each tile's rows and accumulates the two tiles of a batch into one pooled row, starting from
  zero. The whole-array program computes each layer with two batched products and sums the second layer over all 2048 nodes
  at once. On the extended reals the roundings to a shorter format are the identity, a product accumulated into zero is the
  plain sum over the contraction index, the two spellings of the unit's discarded branch (`exp (min z 0) - 1` against
  `1 · expm1 (select (z > 0) 0 z)`) select the same value, and the sum over the nodes is the sum of the two tiles' sums:
  so both programs' pooled arrays are ONE function of the six graph arguments (the specification's `pooled`), and the
  perceptron head with its logistic output is the same chain of operations applied to it on both sides. No step uses
  finiteness of the inputs: only regrouping of sums and the definitions are involved.

  The three frame claims are the generated frame runs (for the whole-array program: its run with the result dropped); the
  idealization rewrote nothing, so its claim is trivial.
-/
import proofs.«177277_j5901285064811_2_alg».proof.Defs
import proofs.«177277_j5901285064811_2_alg».proof.Proof.Gen.Kernel
import proofs.«177277_j5901285064811_2_alg».proof.Proof.Gen.Kernel.Frame
import proofs.«177277_j5901285064811_2_alg».proof.Proof.Gen.KernelIdeal
import proofs.«177277_j5901285064811_2_alg».proof.Proof.Gen.KernelIdeal.Frame
import proofs.«177277_j5901285064811_2_alg».proof.Proof.Gen.ReferenceIdeal
import proofs.«177277_j5901285064811_2_alg».proof.Proof.Gen.Pre_finite_inputs
import proofs.«177277_j5901285064811_2_alg».proof.Proof.KernelValue
import proofs.«177277_j5901285064811_2_alg».proof.Proof.RefRead
import Idealize.ShloMosaic.Adequacy
import Idealize.ShloMosaic.Init

noncomputable section

namespace Cert.Proof

open Idealize.ShloMosaic Idealize.SL.Sem

/-- The perceptron head is the same chain of operations in both programs. -/
theorem tail_eq (p : FVec Ideal Cert.KernelIdeal.S16x32 .f32) (wf1 : FVec Ideal Cert.KernelIdeal.S32x512 .f32)
    (bf1 : FVec Ideal Cert.KernelIdeal.S512 .f32) (wf2 : FVec Ideal Cert.KernelIdeal.S512x1 .f32)
    (bf2 : FVec Ideal Cert.KernelIdeal.S1 .f32) :
    Cert.ReferenceIdeal.RefValue.tail (F := Ideal) p wf1 bf1 wf2 bf2 = Cert.KernelIdeal.KTail.tail (F := Ideal) p wf1 bf1 wf2 bf2 :=
  rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- From memories agreeing on the arguments both programs end at the perceptron head of the specification's pooled
    array of those arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run (F := Ideal) m' ρ')
  obtain ⟨h0, h1, h2, h3, h4, h5, h6, h7, h8, h9⟩ := hagree c
  rw [h0, h1, h2, h3, h4, h5, h6, h7, h8, h9, Cert.ReferenceIdeal.RefValue.refTerm_eq]
  exact tail_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
